-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x100000 : Shape := ⟨2, ![2, 100000]⟩
abbrev S2x600000 : Shape := ⟨2, ![2, 600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : IVec S2x100000 32) (main_arg8 : IVec S2x600000 32) (main_arg9 : IVec S2x100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S2x100000 : Shape := ⟨2, ![2, 100000]⟩
abbrev S2x600000 : Shape := ⟨2, ![2, 600000]⟩
abbrev S1x100000 : Shape := ⟨2, ![1, 100000]⟩
abbrev S100000 : Shape := ⟨1, ![100000]⟩
abbrev S_ : Shape := ⟨0, ![]⟩
abbrev S100000x1 : Shape := ⟨2, ![100000, 1]⟩
abbrev S1x600000 : Shape := ⟨2, ![1, 600000]⟩
abbrev S600000 : Shape := ⟨1, ![600000]⟩
abbrev S600000x1 : Shape := ⟨2, ![600000, 1]⟩
abbrev S1x128 : Shape := ⟨2, ![1, 128]⟩
abbrev S5000x128 : Shape := ⟨2, ![5000, 128]⟩
abbrev S5000x1 : Shape := ⟨2, ![5000, 1]⟩
abbrev S600000x128 : Shape := ⟨2, ![600000, 128]⟩

abbrev nBuf : Space → Nat
  | .hbm => 102
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2x100000, .i32⟩
  | .hbm, ⟨8, _⟩ => ⟨S2x600000, .i32⟩
  | .hbm, ⟨9, _⟩ => ⟨S2x100000, .i32⟩
  | .hbm, ⟨10, _⟩ => ⟨S1x100000, .i32⟩
  | .hbm, ⟨11, _⟩ => ⟨S100000, .i32⟩
  | .hbm, ⟨12, _⟩ => ⟨S1x100000, .i32⟩
  | .hbm, ⟨13, _⟩ => ⟨S100000, .i32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x1, .i32⟩
  | .hbm, ⟨26, _⟩ => ⟨S100000x128, .f32⟩
  | .hbm, ⟨27, _⟩ => ⟨S_, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S1x600000, .i32⟩
  | .hbm, ⟨40, _⟩ => ⟨S600000, .i32⟩
  | .hbm, ⟨41, _⟩ => ⟨S1x600000, .i32⟩
  | .hbm, ⟨42, _⟩ => ⟨S600000, .i32⟩
  | .hbm, ⟨43, _⟩ => ⟨S_, .f32⟩
  | .hbm, ⟨44, _⟩ => ⟨S600000, .f32⟩
  | .hbm, ⟨45, _⟩ => ⟨S_, .f32⟩
  | .hbm, ⟨46, _⟩ => ⟨S100000, .f32⟩
  | .hbm, ⟨47, _⟩ => ⟨S600000x1, .i32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S100000, .f32⟩
  | .hbm, ⟨53, _⟩ => ⟨S100000x1, .f32⟩
  | .hbm, ⟨54, _⟩ => ⟨S1x128, .f32⟩
  | .hbm, ⟨55, _⟩ => ⟨S100000x128, .f32⟩
  | .hbm, ⟨56, _⟩ => ⟨S_, .i32⟩
  | .hbm, ⟨57, _⟩ => ⟨S600000, .i32⟩
  | .hbm, ⟨58, _⟩ => ⟨S600000, .i1⟩
  | .hbm, ⟨59, _⟩ => ⟨S_, .i32⟩
  | .hbm, ⟨60, _⟩ => ⟨S600000, .i32⟩
  | .hbm, ⟨61, _⟩ => ⟨S600000, .i32⟩
  | .hbm, ⟨62, _⟩ => ⟨S600000, .i32⟩
  | .hbm, ⟨63, _⟩ => ⟨S600000x1, .i32⟩
  | .hbm, ⟨64, _⟩ => ⟨S600000x128, .f32⟩
  | .hbm, ⟨65, _⟩ => ⟨S_, .f32⟩
  | .hbm, ⟨66, _⟩ => ⟨S100000x128, .f32⟩
  | .hbm, ⟨67, _⟩ => ⟨S600000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S1x100000, .i32⟩
  | .hbm, ⟨72, _⟩ => ⟨S100000, .i32⟩
  | .hbm, ⟨73, _⟩ => ⟨S1x100000, .i32⟩
  | .hbm, ⟨74, _⟩ => ⟨S100000, .i32⟩
  | .hbm, ⟨75, _⟩ => ⟨S_, .i32⟩
  | .hbm, ⟨76, _⟩ => ⟨S100000, .i32⟩
  | .hbm, ⟨77, _⟩ => ⟨S100000, .i1⟩
  | .hbm, ⟨78, _⟩ => ⟨S_, .i32⟩
  | .hbm, ⟨79, _⟩ => ⟨S100000, .i32⟩
  | .hbm, ⟨80, _⟩ => ⟨S100000, .i32⟩
  | .hbm, ⟨81, _⟩ => ⟨S100000, .i32⟩
  | .hbm, ⟨82, _⟩ => ⟨S100000x1, .i32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x1, .i32⟩
  | .hbm, ⟨87, _⟩ => ⟨S100000x128, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000x1, .i32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x128, .f32⟩
  | .hbm, ⟨99, _⟩ => ⟨S100000x128, .f32⟩
  | .hbm, ⟨100, _⟩ => ⟨S1x128, .f32⟩
  | .hbm, ⟨101, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_15 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  gather_S100000x128_S100000x1_S100000x128_1_0_n_n_0_1_1128_wf : GatherDims.WF S100000x128 S100000x1 S100000x128 [1] [0] [] [0] [] 1 ![1, 128]
  scatter_S100000x128_S100000x1_S100000x128_1_0_0_1_wf : ScatterDims.WF S100000x128 S100000x1 S100000x128 [1] [0] [0] 1
  scatter_S100000_S100000x1_S100000_n_0_0_1_wf : ScatterDims.WF S100000 S100000x1 S100000 [] [0] [0] 1
  scatter_S100000_S600000x1_S600000_n_0_0_1_wf : ScatterDims.WF S100000 S600000x1 S600000 [] [0] [0] 1
  dot_S5000x128_S128x128_S5000x128_1_0_0_1_n_n_wf : DotDims.WF S5000x128 S128x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x1.size a ≤ S100000x1.size a
  hwx0_5 : ∀ i : grid0.Coords, EltTy.bits .f32 = 32 ∨ (Rect.block (s := S100000x1) S5000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S5000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v36) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v73) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x100000 : Shape := ⟨2, ![2, 100000]⟩
abbrev S2x600000 : Shape := ⟨2, ![2, 600000]⟩
abbrev S1x100000 : Shape := ⟨2, ![1, 100000]⟩
abbrev S100000 : Shape := ⟨1, ![100000]⟩
abbrev S_ : Shape := ⟨0, ![]⟩
abbrev S100000x1 : Shape := ⟨2, ![100000, 1]⟩
abbrev S1x128 : Shape := ⟨2, ![1, 128]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S2x100000, .i32⟩
  | 8 => ⟨S2x600000, .i32⟩
  | 9 => ⟨S2x100000, .i32⟩
  | 10 => ⟨S1x100000, .i32⟩
  | 11 => ⟨S100000, .i32⟩
  | 12 => ⟨S1x100000, .i32⟩
  | 13 => ⟨S100000, .i32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S100000x128, .f32⟩
  | 23 => ⟨S_, .f32⟩
  | 24 => ⟨S100000x128, .f32⟩
  | 25 => ⟨S100000x1, .i32⟩
  | 26 => ⟨S100000x128, .f32⟩
  | 27 => ⟨S_, .f32⟩
  | 28 => ⟨S100000, .f32⟩
  | 29 => ⟨S_, .f32⟩
  | 30 => ⟨S100000, .f32⟩
  | 31 => ⟨S100000x1, .i32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S1x600000, .i32⟩
  | 48 => ⟨S600000, .i32⟩
  | 49 => ⟨S1x600000, .i32⟩
  | 50 => ⟨S600000, .i32⟩
  | 51 => ⟨S100000x128, .f32⟩
  | 52 => ⟨S_, .f32⟩
  | 53 => ⟨S600000, .f32⟩
  | 54 => ⟨S_, .f32⟩
  | 55 => ⟨S100000, .f32⟩
  | 56 => ⟨S600000x1, .i32⟩
  | 57 => ⟨S100000, .f32⟩
  | 58 => ⟨S_, .f32⟩
  | 59 => ⟨S100000, .f32⟩
  | 60 => ⟨S100000, .f32⟩
  | 61 => ⟨S100000, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000, .f32⟩
  | 80 => ⟨S600000, .f32⟩
  | 81 => ⟨S600000x1, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000x128, .f32⟩
  | 91 => ⟨S600000x128, .f32⟩
  | 92 => ⟨S600000x128, .f32⟩
  | 93 => ⟨S_, .f32⟩
  | 94 => ⟨S100000x128, .f32⟩
  | 95 => ⟨S600000x1, .i32⟩
  | 96 => ⟨S100000x128, .f32⟩
  | 97 => ⟨S_, .f32⟩
  | 98 => ⟨S100000, .f32⟩
  | 99 => ⟨S100000, .f32⟩
  | 100 => ⟨S100000x1, .f32⟩
  | 101 => ⟨S100000x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S1x100000, .i32⟩
  | 108 => ⟨S100000, .i32⟩
  | 109 => ⟨S1x100000, .i32⟩
  | 110 => ⟨S100000, .i32⟩
  | 111 => ⟨S_, .i32⟩
  | 112 => ⟨S100000, .i32⟩
  | 113 => ⟨S100000, .i1⟩
  | 114 => ⟨S_, .i32⟩
  | 115 => ⟨S100000, .i32⟩
  | 116 => ⟨S100000, .i32⟩
  | 117 => ⟨S100000, .i32⟩
  | 118 => ⟨S100000x1, .i32⟩
  | 119 => ⟨S100000x128, .f32⟩
  | 120 => ⟨S_, .f32⟩
  | 121 => ⟨S100000x128, .f32⟩
  | 122 => ⟨S100000x1, .i32⟩
  | 123 => ⟨S100000x128, .f32⟩
  | 124 => ⟨S_, .f32⟩
  | 125 => ⟨S100000, .f32⟩
  | 126 => ⟨S_, .f32⟩
  | 127 => ⟨S100000, .f32⟩
  | _ => ⟨S100000x128, .f32⟩

abbrev hbmTy0_1 (i : Nat) : BufTy := match i % 128 with
  | 0 => ⟨S100000x1, .i32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x128, .f32⟩
  | 7 => ⟨S100000x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_15 : Ref sig .tc := ⟨.hbm, 111, rfl⟩
abbrev main_v82 : Ref sig .tc := ⟨.hbm, 112, rfl⟩
abbrev main_v83 : Ref sig .tc := ⟨.hbm, 113, rfl⟩
abbrev main_c_16 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_17 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_18 : Ref sig .tc := ⟨.hbm, 124, rfl⟩
abbrev main_v92 : Ref sig .tc := ⟨.hbm, 125, rfl⟩
abbrev main_cst_19 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_20 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_call1_cst : Ref sig .tc := ⟨.hbm, 141, rfl⟩
abbrev main_call1_v0 : Ref sig .tc := ⟨.hbm, 142, rfl⟩
abbrev main_v106 : Ref sig .tc := ⟨.hbm, 143, rfl⟩

abbrev nD : Nat := 1
abbrev τ : Topo := Topo.v7x

variable {F : FTy → Type} [FloatOps F]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  gather_S100000x128_S100000x1_S100000x128_1_0_n_n_0_1_1128_wf : GatherDims.WF S100000x128 S100000x1 S100000x128 [1] [0] [] [0] [] 1 ![1, 128]
  scatter_S100000x128_S100000x1_S100000x128_1_0_0_1_wf : ScatterDims.WF S100000x128 S100000x1 S100000x128 [1] [0] [0] 1
  scatter_S100000_S100000x1_S100000_n_0_0_1_wf : ScatterDims.WF S100000 S100000x1 S100000 [] [0] [0] 1
  dot_S100000x128_S128x128_S100000x128_1_0_0_1_n_n_wf : DotDims.WF S100000x128 S128x128 S100000x128 [1] [0] [0] [1] [] []
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.KernelRun.lean ====
/-
  The kernel program's run with its result named.

  The program is three pallas regions among stretches of host operations.  Its generated frame follows the buffer contents
  through the six segments: `W0` at launch, `W1` after the first stretch, `W2` after region 0 (its arrays at what the
  write-backs leave, every other buffer as entered), and so on to `W6` after region 2.  Every weakly fair execution ends
  with every unscoped buffer at `W6`; here that is read at the result buffer as well as at the arguments.
-/
import proofs.«101062_j15590731285076_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, with the result buffer at the last
    boundary's contents `W6` and the argument arrays as launched. -/
theorem run : θ_run defs (onTc (τ := τ) (main (F := F))) ⟨m, fun _ => 0, ρ⟩ (fun r => ∀ c : Dev nD,
      r.2.mem ((c.tc : Thread nD τ).loc main_v73) = W6 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v73 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.RunValue

end
-- ==== Proof.RefDense.lean ====
/-
  The reference's two dense layers read at an entry.

  The hidden features are `h = relu(x + agg · W_down + b_down) · W_gcn`: entry `(p, q)` of `h` is the sum over `k` of
  `max (x(p,k) + ∑ₗ agg(p,l) · W_down(l,k) + b_down(k)) 0 · W_gcn(k,q)`.  The result is `relu(y + agg₂ · W_up + b_up)`:
  entry `(p, q)` is `max (y(p,q) + ∑ₗ agg₂(p,l) · W_up(l,q) + b_up(q)) 0`.  Each host product with one contracted
  axis is a plain sum over that axis, and the bias enters through a row re-layout and a broadcast down the rows.
-/
import proofs.«101062_j15590731285076_2_alg».proof.Proof.Gen.ReferenceIdeal.Read

noncomputable section

namespace Cert.ReferenceIdeal.Dense

open Cert.ReferenceIdeal Cert.ReferenceIdeal.Read Idealize.ShloMosaic Idealize.ShloMosaic.ValueIdx

/-- Entry `(p, q)` of the hidden features `h`. -/
theorem h_apply (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x7 : (⟨S2x100000, .i32⟩ : BufTy).Contents (Elt Ideal)) (p : Fin 100000) (q : Fin 128) :
    val_main_v33 (F := Ideal) x0 x1 x2 x3 x7 (ix2 p q)
      = ∑ k : Fin 128, max (x0 (ix2 p k) + (∑ l : Fin 128, val_main_v22 (F := Ideal) x0 x7 (ix2 p l) * x1 (ix2 l k)) + x2 (ix1 k)) 0
          * x3 (ix2 k q) := by
  rw [val_main_v33_apply]
  refine Finset.sum_congr rfl fun k _ => ?_
  have e1 : lidx_main_v33 (ix2 p q) k = ix2 p k := funext fun a => Fin.ext (by match a with | ⟨0, _⟩ => rfl | ⟨1, _⟩ => rfl)
  have e2 : ridx_main_v33 (ix2 p q) k = ix2 k q := funext fun a => Fin.ext (by match a with | ⟨0, _⟩ => rfl | ⟨1, _⟩ => rfl)
  have e3 : ∀ l : Fin 128, lidx_main_v23 (ix2 p k) l = ix2 p l := fun l =>
    funext fun a => Fin.ext (by match a with | ⟨0, _⟩ => rfl | ⟨1, _⟩ => rfl)
  have e4 : ∀ l : Fin 128, ridx_main_v23 (ix2 p k) l = ix2 l k := fun l =>
    funext fun a => Fin.ext (by match a with | ⟨0, _⟩ => rfl | ⟨1, _⟩ => rfl)
  have e5 : idx_main_v25 (idx_main_v26 (ix2 p k)) = ix1 k := funext fun a => Fin.ext (by match a with | ⟨0, _⟩ => rfl)
  rw [e1, e2, val_main_v28_apply, val_main_v27_apply, val_main_v24_apply, val_main_v23_apply, val_main_v26_apply,
    val_main_v25_apply, val_main_call0_v0_apply, val_main_call0_cst_apply, e5]
  simp only [e3, e4, Ideal.maximumf_def, Ideal.addf_def, Ideal.ofBits_def, Ideal.ofBits_zero_f32]

/-- Entry `(p, q)` of the result. -/
theorem out_apply (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S2x100000, .i32⟩ : BufTy).Contents (Elt Ideal))
    (x8 : (⟨S2x600000, .i32⟩ : BufTy).Contents (Elt Ideal)) (x9 : (⟨S2x100000, .i32⟩ : BufTy).Contents (Elt Ideal))
    (p : Fin 100000) (q : Fin 128) :
    val_main_v106 (F := Ideal) x0 x1 x2 x3 x4 x5 x6 x7 x8 x9 (ix2 p q)
      = max (val_main_v77 (F := Ideal) x0 x1 x2 x3 x4 x7 x8 (ix2 p q)
              + (∑ l : Fin 128, val_main_v100 (F := Ideal) x0 x1 x2 x3 x4 x7 x8 x9 (ix2 p l) * x5 (ix2 l q)) + x6 (ix1 q)) 0 := by
  have e3 : ∀ l : Fin 128, lidx_main_v101 (ix2 p q) l = ix2 p l := fun l =>
    funext fun a => Fin.ext (by match a with | ⟨0, _⟩ => rfl | ⟨1, _⟩ => rfl)
  have e4 : ∀ l : Fin 128, ridx_main_v101 (ix2 p q) l = ix2 l q := fun l =>
    funext fun a => Fin.ext (by match a with | ⟨0, _⟩ => rfl | ⟨1, _⟩ => rfl)
  have e5 : idx_main_v103 (idx_main_v104 (ix2 p q)) = ix1 q := funext fun a => Fin.ext (by match a with | ⟨0, _⟩ => rfl)
  rw [val_main_v106_apply, val_main_v105_apply, val_main_v102_apply, val_main_v101_apply, val_main_v104_apply,
    val_main_v103_apply, val_main_call1_v0_apply, val_main_call1_cst_apply, e5]
  simp only [e3, e4, Ideal.maximumf_def, Ideal.addf_def, Ideal.ofBits_def, Ideal.ofBits_zero_f32]

/-- The second neighbourhood mean as a function of the features `y` it averages and of the edge list: the rows of `y` named
    by the edges' sources, summed into the rows named by their destinations, each row divided by `max (count) 1`. -/
def meanOver (y : (⟨S100000x128, .f32⟩ : BufTy).Contents (Elt Ideal)) (x9 : (⟨S2x100000, .i32⟩ : BufTy).Contents (Elt Ideal)) :
    (⟨S100000x128, .f32⟩ : BufTy).Contents (Elt Ideal) :=
  (Host.divf (F := Ideal) (φ := .f32)
    (Host.scatterAdd (F := Ideal) (φ := .f32) scatter_S100000x128_S100000x1_S100000x128_1_0_0_1 (val_main_v89 (F := Ideal))
      (val_main_v90 (F := Ideal) x9)
      (Host.gather gather_S100000x128_S100000x1_S100000x128_1_0_n_n_0_1_1128 (y : FVec Ideal S100000x128 .f32)
        (val_main_v87 (F := Ideal) x9) : FVec Ideal S100000x128 .f32))
    (val_main_v99 (F := Ideal) x9) : FVec Ideal S100000x128 .f32)

/-- The reference's second mean is that function of its own intermediate features. -/
theorem val_main_v100_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x7 : (⟨S2x100000, .i32⟩ : BufTy).Contents (Elt Ideal))
    (x8 : (⟨S2x600000, .i32⟩ : BufTy).Contents (Elt Ideal)) (x9 : (⟨S2x100000, .i32⟩ : BufTy).Contents (Elt Ideal)) :
    val_main_v100 (F := Ideal) x0 x1 x2 x3 x4 x7 x8 x9 = meanOver (val_main_v77 (F := Ideal) x0 x1 x2 x3 x4 x7 x8) x9 := rfl

end Cert.ReferenceIdeal.Dense

end
-- ==== Proof.KernelHost.lean ====
/-
  The host stretches of the kernel program, read at the buffers its three regions take.

  Between the launch and region 0 the program computes the first neighbourhood mean and the degree scale
  `dinv = rsqrt (deg + 1)`; between regions 0 and 1 it sums region 0's output `hs` over the edges (rows of `hs` named by
  the edges' sources, added into the rows named by their destinations); between regions 1 and 2 it takes the second
  neighbourhood mean of region 1's output.  These are the very host operations the reference applies, so each value is
  stated through the reference's own stage functions of the same arguments and the chains are never opened.  A buffer a
  stretch or a region does not write is walked back to the boundary where it was written.
-/
import proofs.«101062_j15590731285076_2_alg».proof.Proof.Gen.KernelIdeal.Frame
import proofs.«101062_j15590731285076_2_alg».proof.Proof.RefDense
import Idealize.ShloMosaic.Lib.StableHlo.Run

set_option maxRecDepth 16384

noncomputable section

namespace Cert.KernelIdeal.HostValue

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Region 0's output array after the region: the scaled hidden features `hs`. -/
def hs := (dat0 (V1 m ρ) c).arrAt 6 cfg0.N
/-- Region 1's output array after the region: the convolved features. -/
def conv := (dat1 (V3 m ρ) c).arrAt 4 cfg1.N

/-! ## Before region 0 -/

theorem entry0_arg0 : V1 m ρ c main_arg0 = m ((c : Thread nD τ).loc main_arg0) := by
  show StableHlo.after hostOps0 (W0 m ρ c) (Proc.devRef .tc main_arg0) = _
  after_results_simp <;> rfl
theorem entry0_arg1 : V1 m ρ c main_arg1 = m ((c : Thread nD τ).loc main_arg1) := by
  show StableHlo.after hostOps0 (W0 m ρ c) (Proc.devRef .tc main_arg1) = _
  after_results_simp <;> rfl
theorem entry0_arg3 : V1 m ρ c main_arg3 = m ((c : Thread nD τ).loc main_arg3) := by
  show StableHlo.after hostOps0 (W0 m ρ c) (Proc.devRef .tc main_arg3) = _
  after_results_simp <;> rfl
/-- The first neighbourhood mean. -/
theorem entry0_mean : V1 m ρ c main_v22
    = val_main_v22 (F := Ideal) (m ((c : Thread nD τ).loc main_arg0)) (m ((c : Thread nD τ).loc main_arg7)) := by
  show StableHlo.after hostOps0 (W0 m ρ c) (Proc.devRef .tc main_v22) = _
  after_results_simp <;> rfl
/-- The first bias as a row. -/
theorem entry0_bias : V1 m ρ c main_v35 = shapeCast _ (m ((c : Thread nD τ).loc main_arg2)) shapeCasts_S128_S1x128 := by
  show StableHlo.after hostOps0 (W0 m ρ c) (Proc.devRef .tc main_v35) = _
  after_results_simp <;> rfl
/-- The degree scale as a column. -/
theorem entry0_dinv : V1 m ρ c main_v34
    = shapeCast _ (val_main_v40 (F := Ideal) (m ((c : Thread nD τ).loc main_arg8))) shapeCasts_S100000_S100000x1 := by
  show StableHlo.after hostOps0 (W0 m ρ c) (Proc.devRef .tc main_v34) = _
  after_results_simp <;> rfl
/-- The edges' sources and destinations, as the first stretch leaves them. -/
theorem w1_src : W1 m ρ c (Proc.devRef .tc main_v24) = val_main_v30 (F := Ideal) (m ((c : Thread nD τ).loc main_arg8)) := by
  show StableHlo.after hostOps0 (W0 m ρ c) (Proc.devRef .tc main_v24) = _
  after_results_simp <;> rfl
theorem w1_dst : W1 m ρ c (Proc.devRef .tc main_v26) = val_main_v32 (F := Ideal) (m ((c : Thread nD τ).loc main_arg8)) := by
  show StableHlo.after hostOps0 (W0 m ρ c) (Proc.devRef .tc main_v26) = _
  after_results_simp <;> rfl
theorem w1_arg4 : W1 m ρ c (Proc.devRef .tc main_arg4) = m ((c : Thread nD τ).loc main_arg4) := by
  show StableHlo.after hostOps0 (W0 m ρ c) (Proc.devRef .tc main_arg4) = _
  after_results_simp <;> rfl
theorem w1_arg5 : W1 m ρ c (Proc.devRef .tc main_arg5) = m ((c : Thread nD τ).loc main_arg5) := by
  show StableHlo.after hostOps0 (W0 m ρ c) (Proc.devRef .tc main_arg5) = _
  after_results_simp <;> rfl
theorem w1_arg6 : W1 m ρ c (Proc.devRef .tc main_arg6) = m ((c : Thread nD τ).loc main_arg6) := by
  show StableHlo.after hostOps0 (W0 m ρ c) (Proc.devRef .tc main_arg6) = _
  after_results_simp <;> rfl
theorem w1_arg9 : W1 m ρ c (Proc.devRef .tc main_arg9) = m ((c : Thread nD τ).loc main_arg9) := by
  show StableHlo.after hostOps0 (W0 m ρ c) (Proc.devRef .tc main_arg9) = _
  after_results_simp <;> rfl

/-! ## After region 0, before region 1 -/

theorem w2_hs : W2 m ρ c (Proc.devRef .tc main_v36) = hs m ρ c := W2_arr m ρ c 6
/-- Region 0 only reads the degree scale: the array is as entered. -/
theorem w2_dinv : W2 m ρ c (Proc.devRef .tc main_v34)
    = shapeCast _ (val_main_v40 (F := Ideal) (m ((c : Thread nD τ).loc main_arg8))) shapeCasts_S100000_S100000x1 :=
  (W2_arr m ρ c 5).trans ((((dat0 (V1 m ρ) c).arrAt_in 5 rfl _).trans (A_eq0 (V1 m ρ) c 5)).trans (entry0_dinv m ρ c))
theorem w2_src : W2 m ρ c (Proc.devRef .tc main_v24) = val_main_v30 (F := Ideal) (m ((c : Thread nD τ).loc main_arg8)) :=
  (W2_of_ne m ρ c main_v24 (by decide)).trans (w1_src m ρ c)
theorem w2_dst : W2 m ρ c (Proc.devRef .tc main_v26) = val_main_v32 (F := Ideal) (m ((c : Thread nD τ).loc main_arg8)) :=
  (W2_of_ne m ρ c main_v26 (by decide)).trans (w1_dst m ρ c)
theorem w2_arg4 : W2 m ρ c (Proc.devRef .tc main_arg4) = m ((c : Thread nD τ).loc main_arg4) :=
  (W2_of_ne m ρ c main_arg4 (by decide)).trans (w1_arg4 m ρ c)
theorem w2_arg5 : W2 m ρ c (Proc.devRef .tc main_arg5) = m ((c : Thread nD τ).loc main_arg5) :=
  (W2_of_ne m ρ c main_arg5 (by decide)).trans (w1_arg5 m ρ c)
theorem w2_arg6 : W2 m ρ c (Proc.devRef .tc main_arg6) = m ((c : Thread nD τ).loc main_arg6) :=
  (W2_of_ne m ρ c main_arg6 (by decide)).trans (w1_arg6 m ρ c)
theorem w2_arg9 : W2 m ρ c (Proc.devRef .tc main_arg9) = m ((c : Thread nD τ).loc main_arg9) :=
  (W2_of_ne m ρ c main_arg9 (by decide)).trans (w1_arg9 m ρ c)

/-- The sum of `hs` over the edges. -/
theorem entry1_sum : V3 m ρ c main_v46
    = Host.scatterAdd (F := Ideal) (φ := .f32) Cert.ReferenceIdeal.scatter_S100000x128_S600000x1_S600000x128_1_0_0_1 (val_main_v66 (F := Ideal))
        (val_main_v67 (F := Ideal) (m ((c : Thread nD τ).loc main_arg8)))
        (Host.gather Cert.ReferenceIdeal.gather_S100000x128_S600000x1_S600000x128_1_0_n_n_0_1_1128
          (hs m ρ c : FVec Ideal Cert.ReferenceIdeal.S100000x128 .f32)
          (val_main_v62 (F := Ideal) (m ((c : Thread nD τ).loc main_arg8))) : FVec Ideal Cert.ReferenceIdeal.S600000x128 .f32) := by
  show StableHlo.after hostOps1 (W2 m ρ c) (Proc.devRef .tc main_v46) = _
  after_results_simp
  rw [w2_hs, w2_dst, w2_src]
  rfl
theorem entry1_hs : V3 m ρ c main_v36 = hs m ρ c := by
  show StableHlo.after hostOps1 (W2 m ρ c) (Proc.devRef .tc main_v36) = _
  after_results_simp
  exact W2_arr m ρ c 6
theorem entry1_dinv : V3 m ρ c main_v34
    = shapeCast _ (val_main_v40 (F := Ideal) (m ((c : Thread nD τ).loc main_arg8))) shapeCasts_S100000_S100000x1 := by
  show StableHlo.after hostOps1 (W2 m ρ c) (Proc.devRef .tc main_v34) = _
  after_results_simp
  exact w2_dinv m ρ c
/-- The convolution's bias as a row. -/
theorem entry1_bias : V3 m ρ c main_v47 = shapeCast _ (m ((c : Thread nD τ).loc main_arg4)) shapeCasts_S128_S1x128 := by
  show StableHlo.after hostOps1 (W2 m ρ c) (Proc.devRef .tc main_v47) = _
  after_results_simp
  rw [w2_arg4]
  rfl
theorem w3_arg5 : W3 m ρ c (Proc.devRef .tc main_arg5) = m ((c : Thread nD τ).loc main_arg5) := by
  show StableHlo.after hostOps1 (W2 m ρ c) (Proc.devRef .tc main_arg5) = _
  after_results_simp
  exact w2_arg5 m ρ c
theorem w3_arg6 : W3 m ρ c (Proc.devRef .tc main_arg6) = m ((c : Thread nD τ).loc main_arg6) := by
  show StableHlo.after hostOps1 (W2 m ρ c) (Proc.devRef .tc main_arg6) = _
  after_results_simp
  exact w2_arg6 m ρ c
theorem w3_arg9 : W3 m ρ c (Proc.devRef .tc main_arg9) = m ((c : Thread nD τ).loc main_arg9) := by
  show StableHlo.after hostOps1 (W2 m ρ c) (Proc.devRef .tc main_arg9) = _
  after_results_simp
  exact w2_arg9 m ρ c

/-! ## After region 1, before region 2 -/

theorem w4_conv : W4 m ρ c (Proc.devRef .tc main_v48) = conv m ρ c := W4_arr m ρ c 4
theorem w4_arg5 : W4 m ρ c (Proc.devRef .tc main_arg5) = m ((c : Thread nD τ).loc main_arg5) :=
  (W4_of_ne m ρ c main_arg5 (by decide)).trans (w3_arg5 m ρ c)
theorem w4_arg6 : W4 m ρ c (Proc.devRef .tc main_arg6) = m ((c : Thread nD τ).loc main_arg6) :=
  (W4_of_ne m ρ c main_arg6 (by decide)).trans (w3_arg6 m ρ c)
theorem w4_arg9 : W4 m ρ c (Proc.devRef .tc main_arg9) = m ((c : Thread nD τ).loc main_arg9) :=
  (W4_of_ne m ρ c main_arg9 (by decide)).trans (w3_arg9 m ρ c)

theorem entry2_conv : V5 m ρ c main_v48 = conv m ρ c := by
  show StableHlo.after hostOps2 (W4 m ρ c) (Proc.devRef .tc main_v48) = _
  after_results_simp
  exact W4_arr m ρ c 4
/-- The second neighbourhood mean, of the convolved features. -/
theorem entry2_mean : V5 m ρ c main_v71
    = Cert.ReferenceIdeal.Dense.meanOver (conv m ρ c) (m ((c : Thread nD τ).loc main_arg9)) := by
  show StableHlo.after hostOps2 (W4 m ρ c) (Proc.devRef .tc main_v71) = _
  after_results_simp
  rw [w4_conv, w4_arg9]
  rfl
theorem entry2_arg5 : V5 m ρ c main_arg5 = m ((c : Thread nD τ).loc main_arg5) := by
  show StableHlo.after hostOps2 (W4 m ρ c) (Proc.devRef .tc main_arg5) = _
  after_results_simp
  exact w4_arg5 m ρ c
/-- The last bias as a row. -/
theorem entry2_bias : V5 m ρ c main_v72 = shapeCast _ (m ((c : Thread nD τ).loc main_arg6)) shapeCasts_S128_S1x128 := by
  show StableHlo.after hostOps2 (W4 m ρ c) (Proc.devRef .tc main_v72) = _
  after_results_simp
  rw [w4_arg6]
  rfl

/-- The program's result is region 2's output array after the region. -/
theorem result_eq : W6 m ρ c (Proc.devRef .tc main_v73) = (dat2 (V5 m ρ) c).arrAt 4 cfg2.N := W6_arr m ρ c 4

end Cert.KernelIdeal.HostValue

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibMatmulRead.lean ====
/-
  A matrix product read at an entry.

  For a product of an `[M, K]` matrix by a `[K, N]` matrix whose dimension record contracts the left operand's columns
  against the right operand's rows, the entry `(p, j)` of the product into a zero accumulator is `∑ₖ L(p, k) · R(k, j)`:
  the contraction index, a one-axis index, is re-indexed by its single coordinate.
-/
import Idealize.ShloMosaic.PureOps.Ideal.Laws
import Idealize.ShloMosaic.Lib.ValueIdx

noncomputable section

namespace Cert.Contract

open Idealize.ShloMosaic Idealize.ShloMosaic.ValueIdx

/-- Entry `(p, j)` of `L · R` accumulated from zero, given where the record sends an output index and a contraction
    index in each operand (`hl0 … hr1`: rows of the left operand follow the output's rows, its columns the contraction;
    rows of the right operand follow the contraction, its columns the output's columns). -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (L : FVec Ideal ⟨2, ![M, K]⟩ φ₁) (R : FVec Ideal ⟨2, ![K, N]⟩ φ₂) (p : Fin M) (j : Fin N) :
    FloatOps.matmul D prec L R (constant (F := Ideal) ⟨2, ![M, N]⟩ .f32 0x00000000#32) (ix2 p j)
      = ∑ k : Fin K, L (ix2 p k) * R (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.Contract

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.BlockProduct.lean ====
/-
  A row block times a square matrix, read at one entry.

  The product of a `[5000, 128]` block by a `[128, 128]` matrix, accumulated from zero, has at `(r, q)` the sum over `k`
  of `L (r, k) · R (k, q)`: the dimension record contracts the block's columns against the matrix's rows.
-/
import proofs.«101062_j15590731285076_2_alg».proof.Proof.Gen.KernelIdeal
import proofs.«101062_j15590731285076_2_alg».proof.Proof.LibMatmulRead

noncomputable section

namespace Cert.KernelIdeal.RegionValue

open Cert.KernelIdeal Cert.KernelIdeal.Gen Idealize.ShloMosaic Idealize.ShloMosaic.ValueIdx

/-- The left operand's row follows the output's row. -/
theorem dot_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction index. -/
theorem dot_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row is the contraction index. -/
theorem dot_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column follows the output's column. -/
theorem dot_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry `(r, q)` of the block product accumulated from zero. -/
theorem block_product_apply {φ₁ φ₂ : FTy} (L : FVec Ideal S5000x128 φ₁) (R : FVec Ideal S128x128 φ₂)
    (r : Fin 5000) (q : Fin 128) :
    matmul dot_S5000x128_S128x128_S5000x128_1_0_0_1_n_n none L R (constant (F := Ideal) S5000x128 .f32 0x00000000#32) (ix2 r q)
      = ∑ k : Fin 128, L (ix2 r k) * R (ix2 k q) :=
  Cert.Contract.matmul_zero_ix2 dot_S5000x128_S128x128_S5000x128_1_0_0_1_n_n none rfl rfl
    dot_lhs_row dot_lhs_col dot_rhs_row dot_rhs_col L R r q

end Cert.KernelIdeal.RegionValue

end
-- ==== Proof.Region0.lean ====
/-
  The first region's output array, entry by entry.

  The region runs over twenty row blocks of 5000 rows.  At block `t` its body reads rows `5000 t … 5000 t + 4999` of two
  `[100000, 128]` arrays `emb` and `agg` and of a `[100000, 1]` column `s` of row scales, and the whole `[128, 128]`
  matrices `wd`, `wg` and `[1, 128]` bias row `bd`; it forms the hidden block `max (emb + agg · wd + bd) 0`, multiplies it
  by `wg` and scales each row, both products accumulated from zero.  Row `p` is written by block `p / 5000` and by no
  other, so the array the region leaves has, at `(p, q)`, the value
  `(∑ₖ max (emb (p, k) + ∑ₗ agg (p, l) · wd (l, k) + bd k) 0 · wg (k, q)) · s p`.
-/
import proofs.«101062_j15590731285076_2_alg».proof.Proof.Gen.KernelIdeal.Frame
import proofs.«101062_j15590731285076_2_alg».proof.Proof.LibBroadcast
import proofs.«101062_j15590731285076_2_alg».proof.Proof.LibMatmulRead
import proofs.«101062_j15590731285076_2_alg».proof.Proof.LibRowsProduct
import proofs.«101062_j15590731285076_2_alg».proof.Proof.BlockProduct
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- Zero offsets on two axes, as a constant function. -/
theorem zero_offsets0 : (![0, 0] : Fin 2 → Nat) = fun _ => 0 := funext fun a => by fin_cases a <;> rfl

/-! ## The block's arithmetic at one entry -/

/-- The hidden block at `(r, k)`: the first block's entry plus row `r` of the second block times column `k` of the first
    square matrix plus the bias row's entry `k`, cut below at zero. Rounding the product's operands to a narrower format
    changes nothing at the ideal values. -/
theorem hidden_block_apply (x0 x1 : Vec Ideal S5000x128 .f32) (x3 : Vec Ideal S128x128 .f32) (x8 : Vec Ideal S1x128 .f32)
    (r : Fin 5000) (k : Fin 128) :
    maximumf (addf (addf x0 (matmul dot_S5000x128_S128x128_S5000x128_1_0_0_1_n_n none (truncf .bf16 x1 bitsLt_bf16_f32)
        (truncf .bf16 x3 bitsLt_bf16_f32) (constant (F := Ideal) S5000x128 .f32 0x00000000#32)))
        (broadcastTo S5000x128 x8 broadcasts_S1x128_S5000x128))
      (broadcast S5000x128 (Scalar.ofBits (F := Ideal) .f32 0x00000000#32)) (ix2 r k)
      = max (x0 (ix2 r k) + (∑ l : Fin 128, x1 (ix2 r l) * x3 (ix2 l k)) + x8 (ix2 (0 : Fin 1) k)) (0 : EReal) := by
  show max (x0 (ix2 r k)
        + matmul dot_S5000x128_S128x128_S5000x128_1_0_0_1_n_n none (truncf .bf16 x1 bitsLt_bf16_f32)
            (truncf .bf16 x3 bitsLt_bf16_f32) (constant (F := Ideal) S5000x128 .f32 0x00000000#32) (ix2 r k)
        + broadcastTo S5000x128 x8 broadcasts_S1x128_S5000x128 (ix2 r k)) (Ideal.ofBits .f32 0x00000000#32) = _
  rw [block_product_apply, Cert.RowsProduct.broadcastTo_1n_an_apply, Ideal.ofBits_zero_f32]
  rfl

/-- Entry `(r, q)` of the block the first region's body stores: row `r` of the hidden block times column `q` of the second
    square matrix, scaled by row `r`'s scale. -/
theorem k0_payload_apply (x0 x1 : Vec Ideal S5000x128 .f32) (x3 : Vec Ideal S128x128 .f32) (x8 : Vec Ideal S1x128 .f32)
    (x14 : Vec Ideal S128x128 .f32) (x18 : Vec Ideal S5000x1 .f32) (r : Fin 5000) (q : Fin 128) :
    k0_pay1 x0 x1 x3 x8 x14 x18 (ix2 r q)
      = (∑ k : Fin 128, max (x0 (ix2 r k) + (∑ l : Fin 128, x1 (ix2 r l) * x3 (ix2 l k)) + x8 (ix2 (0 : Fin 1) k)) (0 : EReal)
            * x14 (ix2 k q)) * x18 (ix2 r (0 : Fin 1)) := by
  unfold k0_pay1
  simp only [shapeCast_self]
  show matmul dot_S5000x128_S128x128_S5000x128_1_0_0_1_n_n none
        (truncf .bf16 (maximumf (addf (addf x0 (matmul dot_S5000x128_S128x128_S5000x128_1_0_0_1_n_n none (truncf .bf16 x1 bitsLt_bf16_f32)
            (truncf .bf16 x3 bitsLt_bf16_f32) (constant (F := Ideal) S5000x128 .f32 0x00000000#32)))
            (broadcastTo S5000x128 x8 broadcasts_S1x128_S5000x128))
          (broadcast S5000x128 (Scalar.ofBits (F := Ideal) .f32 0x00000000#32))) bitsLt_bf16_f32)
        (truncf .bf16 x14 bitsLt_bf16_f32) (constant (F := Ideal) S5000x128 .f32 0x00000000#32) (ix2 r q)
      * broadcastTo S5000x128 x18 broadcasts_S5000x1_S5000x128 (ix2 r q) = _
  rw [block_product_apply, Cert.Layout.broadcastTo_a1_ab_apply]
  refine congrArg (· * x18 (ix2 r (0 : Fin 1))) (Finset.sum_congr rfl fun k _ => ?_)
  refine congrArg (· * x14 (ix2 k q)) ?_
  exact hidden_block_apply x0 x1 x3 x8 r k

/-! ## The whole array the region leaves -/

/-- The array the first region leaves, index by index:
    `(∑ₖ max (emb (p, k) + ∑ₗ agg (p, l) · wd (l, k) + bd k) 0 · wg (k, q)) · s p`. -/
def scaledDense (emb agg : S100000x128.Idx → EReal) (wd : S128x128.Idx → EReal) (bd : S1x128.Idx → EReal)
    (wg : S128x128.Idx → EReal) (s : S100000x1.Idx → EReal) : S100000x128.Idx → EReal := fun i =>
  (∑ k : Fin 128, max (emb (ix2 (⟨(i 0).val, idx2_lt0 i⟩ : Fin 100000) k)
        + (∑ l : Fin 128, agg (ix2 (⟨(i 0).val, idx2_lt0 i⟩ : Fin 100000) l) * wd (ix2 l k)) + bd (ix2 (0 : Fin 1) k)) (0 : EReal)
      * wg (ix2 k (⟨(i 1).val, idx2_lt1 i⟩ : Fin 128)))
    * s (ix2 (⟨(i 0).val, idx2_lt0 i⟩ : Fin 100000) (0 : Fin 1))

theorem scaledDense_apply (emb agg : S100000x128.Idx → EReal) (wd : S128x128.Idx → EReal) (bd : S1x128.Idx → EReal)
    (wg : S128x128.Idx → EReal) (s : S100000x1.Idx → EReal) (p : Fin 100000) (q : Fin 128) :
    scaledDense emb agg wd bd wg s (ix2 p q)
      = (∑ k : Fin 128, max (emb (ix2 p k) + (∑ l : Fin 128, agg (ix2 p l) * wd (ix2 l k)) + bd (ix2 (0 : Fin 1) k)) 0
            * wg (ix2 k q)) * s (ix2 p (0 : Fin 1)) := rfl

/-- A block's entry is the whole array's, once each block it reads is known to hold the array's rows: the body's
    arithmetic at row `r` of a block is the array function at the row `P` the block's row `r` is. -/
theorem k0_payload_eq_scaledDense (emb agg : S100000x128.Idx → EReal) (wd : S128x128.Idx → EReal) (bd : S1x128.Idx → EReal)
    (wg : S128x128.Idx → EReal) (s : S100000x1.Idx → EReal)
    (b0 b1 : Vec Ideal S5000x128 .f32) (b2 : Vec Ideal S128x128 .f32) (b3 : Vec Ideal S1x128 .f32)
    (b4 : Vec Ideal S128x128 .f32) (b5 : Vec Ideal S5000x1 .f32)
    (P : Fin 100000) (r : Fin 5000) (q : Fin 128)
    (h0 : ∀ k : Fin 128, b0 (ix2 r k) = emb (ix2 P k)) (h1 : ∀ l : Fin 128, b1 (ix2 r l) = agg (ix2 P l))
    (h2 : ∀ l k : Fin 128, b2 (ix2 l k) = wd (ix2 l k)) (h3 : ∀ k : Fin 128, b3 (ix2 (0 : Fin 1) k) = bd (ix2 (0 : Fin 1) k))
    (h4 : ∀ k : Fin 128, b4 (ix2 k q) = wg (ix2 k q)) (h5 : b5 (ix2 r (0 : Fin 1)) = s (ix2 P (0 : Fin 1))) :
    k0_pay1 b0 b1 b2 b3 b4 b5 (ix2 r q) = scaledDense emb agg wd bd wg s (ix2 P q) := by
  rw [k0_payload_apply, scaledDense_apply, h5]
  simp only [h0, h1, h2, h3, h4]

/-! ## Where each window's block sits -/

/-- Block indices of the seven windows at each of the twenty grid points: the four row-blocked windows are at row block
    `t`, column block `0`; the two square matrices and the bias row are whole at every point. -/
theorem block_indices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The first window's block at point `t` holds rows `5000 t … 5000 t + 4999` of its array. -/
theorem block0_0_apply (c : Dev nD) (t : Fin cfg0.N) (r : Fin 5000) (q : Fin 128) (P : Fin 100000)
    (hP : P.val = t.val * 5000 + r.val) :
    (iblk0 V c 0 t : Vec Ideal S5000x128 .f32) (ix2 r q) = (V c main_arg0 : S100000x128.Idx → EReal) (ix2 P q) := by
  obtain ⟨e0, e1, -⟩ := block_indices0 t
  unfold iblk0
  show V c main_arg0 (((cfg0.win 0).blk t).view.emb (ix2 r q)) = V c main_arg0 (ix2 P q)
  refine congrArg (V c main_arg0 : S100000x128.Idx → EReal) (funext fun a => Fin.ext ?_)
  match a with
  | ⟨0, _⟩ => show win0_0.index t (0 : Fin 2) * 5000 + 1 * r.val = P.val; rw [e0, hP]; omega
  | ⟨1, _⟩ => show win0_0.index t (1 : Fin 2) * 128 + 1 * q.val = q.val; rw [e1]; omega

/-- The second window's block likewise. -/
theorem block0_1_apply (c : Dev nD) (t : Fin cfg0.N) (r : Fin 5000) (q : Fin 128) (P : Fin 100000)
    (hP : P.val = t.val * 5000 + r.val) :
    (iblk0 V c 1 t : Vec Ideal S5000x128 .f32) (ix2 r q) = (V c main_v22 : S100000x128.Idx → EReal) (ix2 P q) := by
  obtain ⟨-, -, e0, e1, -⟩ := block_indices0 t
  unfold iblk0
  show V c main_v22 (((cfg0.win 1).blk t).view.emb (ix2 r q)) = V c main_v22 (ix2 P q)
  refine congrArg (V c main_v22 : S100000x128.Idx → EReal) (funext fun a => Fin.ext ?_)
  match a with
  | ⟨0, _⟩ => show win0_1.index t (0 : Fin 2) * 5000 + 1 * r.val = P.val; rw [e0, hP]; omega
  | ⟨1, _⟩ => show win0_1.index t (1 : Fin 2) * 128 + 1 * q.val = q.val; rw [e1]; omega

/-- The first square matrix's block is the whole matrix at every point. -/
theorem block0_2_apply (c : Dev nD) (t : Fin cfg0.N) (l q : Fin 128) :
    (iblk0 V c 2 t : Vec Ideal S128x128 .f32) (ix2 l q) = (V c main_arg1 : S128x128.Idx → EReal) (ix2 l q) := by
  obtain ⟨-, -, -, -, e0, e1, -⟩ := block_indices0 t
  unfold iblk0
  show V c main_arg1 (((cfg0.win 2).blk t).view.emb (ix2 l q)) = V c main_arg1 (ix2 l q)
  refine congrArg (V c main_arg1 : S128x128.Idx → EReal) (funext fun a => Fin.ext ?_)
  match a with
  | ⟨0, _⟩ => show win0_2.index t (0 : Fin 2) * 128 + 1 * l.val = l.val; rw [e0]; omega
  | ⟨1, _⟩ => show win0_2.index t (1 : Fin 2) * 128 + 1 * q.val = q.val; rw [e1]; omega

/-- The bias row's block is the whole row at every point. -/
theorem block0_3_apply (c : Dev nD) (t : Fin cfg0.N) (q : Fin 128) :
    (iblk0 V c 3 t : Vec Ideal S1x128 .f32) (ix2 (0 : Fin 1) q) = (V c main_v35 : S1x128.Idx → EReal) (ix2 (0 : Fin 1) q) := by
  obtain ⟨-, -, -, -, -, -, e0, e1, -⟩ := block_indices0 t
  unfold iblk0
  show V c main_v35 (((cfg0.win 3).blk t).view.emb (ix2 (0 : Fin 1) q)) = V c main_v35 (ix2 (0 : Fin 1) q)
  refine congrArg (V c main_v35 : S1x128.Idx → EReal) (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

/-- The second square matrix's block is the whole matrix at every point. -/
theorem block0_4_apply (c : Dev nD) (t : Fin cfg0.N) (l q : Fin 128) :
    (iblk0 V c 4 t : Vec Ideal S128x128 .f32) (ix2 l q) = (V c main_arg3 : S128x128.Idx → EReal) (ix2 l q) := by
  obtain ⟨-, -, -, -, -, -, -, -, e0, e1, -⟩ := block_indices0 t
  unfold iblk0
  show V c main_arg3 (((cfg0.win 4).blk t).view.emb (ix2 l q)) = V c main_arg3 (ix2 l q)
  refine congrArg (V c main_arg3 : S128x128.Idx → EReal) (funext fun a => Fin.ext ?_)
  match a with
  | ⟨0, _⟩ => show win0_4.index t (0 : Fin 2) * 128 + 1 * l.val = l.val; rw [e0]; omega
  | ⟨1, _⟩ => show win0_4.index t (1 : Fin 2) * 128 + 1 * q.val = q.val; rw [e1]; omega

/-- The scale column's block holds rows `5000 t … 5000 t + 4999` of the one-column array. -/
theorem block0_5_apply (c : Dev nD) (t : Fin cfg0.N) (r : Fin 5000) (P : Fin 100000)
    (hP : P.val = t.val * 5000 + r.val) :
    (iblk0 V c 5 t : Vec Ideal S5000x1 .f32) (ix2 r (0 : Fin 1)) = (V c main_v34 : S100000x1.Idx → EReal) (ix2 P (0 : Fin 1)) := by
  obtain ⟨-, -, -, -, -, -, -, -, -, -, e0, e1, -⟩ := block_indices0 t
  unfold iblk0
  show V c main_v34 (((cfg0.win 5).blk t).view.emb (ix2 r (0 : Fin 1))) = V c main_v34 (ix2 P (0 : Fin 1))
  refine congrArg (V c main_v34 : S100000x1.Idx → EReal) (funext fun a => Fin.ext ?_)
  match a with
  | ⟨0, _⟩ => show win0_5.index t (0 : Fin 2) * 5000 + 1 * r.val = P.val; rw [e0, hP]; omega
  | ⟨1, _⟩ => show win0_5.index t (1 : Fin 2) * 1 + 1 * 0 = 0; rw [e1]

/-- Where entry `(r, q)` of the output's block at point `t` sits in the output array. -/
theorem out0_emb (t : Fin cfg0.N) (r : Fin 5000) (q : Fin 128) (P : Fin 100000) (hP : P.val = t.val * 5000 + r.val) :
    (((cfg0.win 6).blk t).view.emb (ix2 r q) : S100000x128.Idx) = ix2 P q := by
  obtain ⟨-, -, -, -, -, -, -, -, -, -, -, -, e0, e1⟩ := block_indices0 t
  refine funext fun a => Fin.ext ?_
  match a with
  | ⟨0, _⟩ => show win0_6.index t (0 : Fin 2) * 5000 + 1 * r.val = P.val; rw [e0, hP]; omega
  | ⟨1, _⟩ => show win0_6.index t (1 : Fin 2) * 128 + 1 * q.val = q.val; rw [e1]; omega

/-! ## What a point writes back, and the array after the region -/

/-- What point `t` writes back is block `t` of `scaledDense` of the arrays as the region finds them. -/
theorem flushed0_eq (c : Dev nD) (t : Fin cfg0.N) :
    (dat0 (F := Ideal) V c).flushed 6 t
      = ((cfg0.win 6).blk t).view.read (Elt Ideal)
          (scaledDense (V c main_arg0) (V c main_v22) (V c main_arg1) (V c main_v35) (V c main_arg3) (V c main_v34)) := by
  show (cfg0.win 6).cut (grid0.coords t) ((dat0 V c).after 6 t) = _
  rw [after0_6]
  unfold out0_6
  rw [View.canon_unit_zero zero_offsets0]
  simp only [View.ld_unit_zero (S := S5000x128) zero_offsets0, View.ld_unit_zero (S := S128x128) zero_offsets0,
    View.ld_unit_zero (S := S1x128) zero_offsets0, View.ld_unit_zero (S := S5000x1) zero_offsets0]
  funext j
  obtain ⟨r, q, rfl⟩ : ∃ (r : Fin 5000) (q : Fin 128), j = ix2 r q := ⟨j 0, j 1, eq_ix2 j⟩
  have hN : cfg0.N = 20 := N_0
  have hlt : t.val * 5000 + r.val < 100000 := by have := t.isLt; have := r.isLt; omega
  show k0_pay1 (iblk0 V c 0 t) (iblk0 V c 1 t) (iblk0 V c 2 t) (iblk0 V c 3 t) (iblk0 V c 4 t) (iblk0 V c 5 t) (ix2 r q)
      = scaledDense (V c main_arg0) (V c main_v22) (V c main_arg1) (V c main_v35) (V c main_arg3) (V c main_v34)
          (((cfg0.win 6).blk t).view.emb (ix2 r q))
  rw [out0_emb t r q ⟨_, hlt⟩ rfl]
  exact k0_payload_eq_scaledDense (V c main_arg0) (V c main_v22) (V c main_arg1) (V c main_v35) (V c main_arg3) (V c main_v34)
    (iblk0 V c 0 t) (iblk0 V c 1 t) (iblk0 V c 2 t) (iblk0 V c 3 t) (iblk0 V c 4 t) (iblk0 V c 5 t) ⟨_, hlt⟩ r q
    (fun k => block0_0_apply V c t r k ⟨_, hlt⟩ rfl) (fun l => block0_1_apply V c t r l ⟨_, hlt⟩ rfl)
    (fun l k => block0_2_apply V c t l k) (fun k => block0_3_apply V c t k)
    (fun k => block0_4_apply V c t k q) (block0_5_apply V c t r ⟨_, hlt⟩ rfl)

/-- An index of the output array is in point `t`'s block iff, on each axis, its coordinate is in the block's range. -/
theorem mem_block0 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v36).slice (win0_6.rect t)).set ↔ _
  rw [View.set_slice_whole, Rect.mem_set_unit]
  exact Iff.rfl

/-- Every index of the output array lies in the block of the point that owns its row: row `p` belongs to point `p / 5000`. -/
theorem covered0 (i : S100000x128.Idx) :
    ∃ t : Fin cfg0.N, (cfg0.win 6).flush t = true ∧ i ∈ ((cfg0.win 6).blk t).view.set := by
  have hi0 : (i 0).val < 100000 := idx2_lt0 i
  have hi1 : (i 1).val < 128 := idx2_lt1 i
  have hN : cfg0.N = 20 := N_0
  have ht : (i 0).val / 5000 < cfg0.N := by omega
  refine ⟨⟨(i 0).val / 5000, ht⟩, flush0_6 _, ?_⟩
  rw [mem_block0]
  obtain ⟨-, -, -, -, -, -, -, -, -, -, -, -, e0, e1⟩ := block_indices0 ⟨(i 0).val / 5000, ht⟩
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    rw [e1]
    omega

/-- The output array after the region is `scaledDense` of the arrays as the region finds them. -/
theorem final0 (c : Dev nD) :
    (dat0 (F := Ideal) V c).arrAt 6 cfg0.N
      = scaledDense (V c main_arg0) (V c main_v22) (V c main_arg1) (V c main_v35) (V c main_arg3) (V c main_v34) :=
  (dat0 V c).arrAt_eq_of_cover 6 _ (fun t _ => flushed0_eq V c t) covered0

/-- The first region's output, entry by entry (`scaledDense_apply` opens the right-hand side). -/
theorem region0_apply (c : Dev nD) (p : Fin 100000) (q : Fin 128) :
    (dat0 (F := Ideal) V c).arrAt 6 cfg0.N (ix2 p q)
      = scaledDense (V c main_arg0) (V c main_v22) (V c main_arg1) (V c main_v35) (V c main_arg3) (V c main_v34) (ix2 p q) :=
  congrFun (final0 V c) (ix2 p q)

end Cert.KernelIdeal.RegionValue
end
-- ==== Proof.Region1.lean ====
/-
  The second region's output array, entry by entry.

  The region runs over twenty row blocks of 5000 rows.  At block `t` its body reads rows `5000 t … 5000 t + 4999` of two
  `[100000, 128]` arrays and of a `[100000, 1]` column of row scales, and the whole `[1, 128]` bias row, and stores
  `scale · (a + b) + bias` for those rows.  Row `p` is written by block `p / 5000` and by no other, so the array the region
  leaves has, at `(p, q)`, the value `scale p · (a (p, q) + b (p, q)) + bias q`.
-/
import proofs.«101062_j15590731285076_2_alg».proof.Proof.Gen.KernelIdeal.Frame
import proofs.«101062_j15590731285076_2_alg».proof.Proof.LibBroadcast
import proofs.«101062_j15590731285076_2_alg».proof.Proof.LibMatmulRead
import proofs.«101062_j15590731285076_2_alg».proof.Proof.LibRowsProduct
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- Zero offsets on two axes, as a constant function. -/
theorem zero_offsets : (![0, 0] : Fin 2 → Nat) = fun _ => 0 := funext fun a => by fin_cases a <;> rfl

/-! ## The block's arithmetic at one entry -/

/-- Entry `(r, q)` of the block the second region's body stores: the row's scale times the sum of the two
    row blocks' entries, plus the bias row's entry in column `q`. -/
theorem k1_payload_apply (x0 : Vec Ideal S5000x1 .f32) (x2 x4 : Vec Ideal S5000x128 .f32) (x9 : Vec Ideal S1x128 .f32)
    (r : Fin 5000) (q : Fin 128) :
    k1_pay1 x0 x2 x4 x9 (ix2 r q)
      = x0 (ix2 r (0 : Fin 1)) * (x2 (ix2 r q) + x4 (ix2 r q)) + x9 (ix2 (0 : Fin 1) q) := by
  unfold k1_pay1
  simp only [shapeCast_self]
  show broadcastTo S5000x128 x0 broadcasts_S5000x1_S5000x128 (ix2 r q) * (x2 (ix2 r q) + x4 (ix2 r q))
      + broadcastTo S5000x128 x9 broadcasts_S1x128_S5000x128 (ix2 r q) = _
  rw [Cert.Layout.broadcastTo_a1_ab_apply, Cert.RowsProduct.broadcastTo_1n_an_apply]

/-! ## The whole array the region leaves -/

/-- The array the second region leaves, index by index: row `p`'s scale times the sum of the two arrays' entries at
    `(p, q)`, plus the bias row's entry `q`. -/
def scaledSum (s : S100000x1.Idx → EReal) (a b : S100000x128.Idx → EReal) (bias : S1x128.Idx → EReal) :
    S100000x128.Idx → EReal := fun i =>
  s (ix2 (⟨(i 0).val, idx2_lt0 i⟩ : Fin 100000) (0 : Fin 1)) * (a i + b i)
    + bias (ix2 (0 : Fin 1) (⟨(i 1).val, idx2_lt1 i⟩ : Fin 128))

theorem scaledSum_apply (s : S100000x1.Idx → EReal) (a b : S100000x128.Idx → EReal) (bias : S1x128.Idx → EReal)
    (p : Fin 100000) (q : Fin 128) :
    scaledSum s a b bias (ix2 p q) = s (ix2 p (0 : Fin 1)) * (a (ix2 p q) + b (ix2 p q)) + bias (ix2 (0 : Fin 1) q) := rfl

/-! ## Where each window's block sits -/

/-- Block indices of the five windows at each of the twenty grid points: the four row-blocked windows are at row block
    `t`, column block `0`; the bias row is whole at every point. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The first window's block at point `t` holds rows `5000 t … 5000 t + 4999` of its array. -/
theorem block1_0_apply (c : Dev nD) (t : Fin cfg1.N) (r : Fin 5000) (q : Fin 128) (P : Fin 100000)
    (hP : P.val = t.val * 5000 + r.val) :
    (iblk1 V c 0 t : Vec Ideal S5000x128 .f32) (ix2 r q) = (V c main_v46 : S100000x128.Idx → EReal) (ix2 P q) := by
  obtain ⟨e0, e1, -⟩ := block_indices1 t
  unfold iblk1
  show V c main_v46 (((cfg1.win 0).blk t).view.emb (ix2 r q)) = V c main_v46 (ix2 P q)
  refine congrArg (V c main_v46 : S100000x128.Idx → EReal) (funext fun a => Fin.ext ?_)
  match a with
  | ⟨0, _⟩ => show win1_0.index t (0 : Fin 2) * 5000 + 1 * r.val = P.val; rw [e0, hP]; omega
  | ⟨1, _⟩ => show win1_0.index t (1 : Fin 2) * 128 + 1 * q.val = q.val; rw [e1]; omega

/-- The second window's block likewise. -/
theorem block1_1_apply (c : Dev nD) (t : Fin cfg1.N) (r : Fin 5000) (q : Fin 128) (P : Fin 100000)
    (hP : P.val = t.val * 5000 + r.val) :
    (iblk1 V c 1 t : Vec Ideal S5000x128 .f32) (ix2 r q) = (V c main_v36 : S100000x128.Idx → EReal) (ix2 P q) := by
  obtain ⟨-, -, e0, e1, -⟩ := block_indices1 t
  unfold iblk1
  show V c main_v36 (((cfg1.win 1).blk t).view.emb (ix2 r q)) = V c main_v36 (ix2 P q)
  refine congrArg (V c main_v36 : S100000x128.Idx → EReal) (funext fun a => Fin.ext ?_)
  match a with
  | ⟨0, _⟩ => show win1_1.index t (0 : Fin 2) * 5000 + 1 * r.val = P.val; rw [e0, hP]; omega
  | ⟨1, _⟩ => show win1_1.index t (1 : Fin 2) * 128 + 1 * q.val = q.val; rw [e1]; omega

/-- The scale column's block holds the same rows of the one-column array. -/
theorem block1_2_apply (c : Dev nD) (t : Fin cfg1.N) (r : Fin 5000) (P : Fin 100000)
    (hP : P.val = t.val * 5000 + r.val) :
    (iblk1 V c 2 t : Vec Ideal S5000x1 .f32) (ix2 r (0 : Fin 1)) = (V c main_v34 : S100000x1.Idx → EReal) (ix2 P (0 : Fin 1)) := by
  obtain ⟨-, -, -, -, e0, e1, -⟩ := block_indices1 t
  unfold iblk1
  show V c main_v34 (((cfg1.win 2).blk t).view.emb (ix2 r (0 : Fin 1))) = V c main_v34 (ix2 P (0 : Fin 1))
  refine congrArg (V c main_v34 : S100000x1.Idx → EReal) (funext fun a => Fin.ext ?_)
  match a with
  | ⟨0, _⟩ => show win1_2.index t (0 : Fin 2) * 5000 + 1 * r.val = P.val; rw [e0, hP]; omega
  | ⟨1, _⟩ => show win1_2.index t (1 : Fin 2) * 1 + 1 * 0 = 0; rw [e1]

/-- The bias row's block is the whole row at every point. -/
theorem block1_3_apply (c : Dev nD) (t : Fin cfg1.N) (q : Fin 128) :
    (iblk1 V c 3 t : Vec Ideal S1x128 .f32) (ix2 (0 : Fin 1) q) = (V c main_v47 : S1x128.Idx → EReal) (ix2 (0 : Fin 1) q) := by
  obtain ⟨-, -, -, -, -, -, e0, e1, -⟩ := block_indices1 t
  unfold iblk1
  show V c main_v47 (((cfg1.win 3).blk t).view.emb (ix2 (0 : Fin 1) q)) = V c main_v47 (ix2 (0 : Fin 1) q)
  refine congrArg (V c main_v47 : S1x128.Idx → EReal) (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-- Where entry `(r, q)` of the output's block at point `t` sits in the output array. -/
theorem out1_emb (t : Fin cfg1.N) (r : Fin 5000) (q : Fin 128) (P : Fin 100000) (hP : P.val = t.val * 5000 + r.val) :
    (((cfg1.win 4).blk t).view.emb (ix2 r q) : S100000x128.Idx) = ix2 P q := by
  obtain ⟨-, -, -, -, -, -, -, -, e0, e1⟩ := block_indices1 t
  refine funext fun a => Fin.ext ?_
  match a with
  | ⟨0, _⟩ => show win1_4.index t (0 : Fin 2) * 5000 + 1 * r.val = P.val; rw [e0, hP]; omega
  | ⟨1, _⟩ => show win1_4.index t (1 : Fin 2) * 128 + 1 * q.val = q.val; rw [e1]; omega

/-! ## What a point writes back, and the array after the region -/

/-- What point `t` writes back is block `t` of `scaledSum` of the arrays as the region finds them. -/
theorem flushed1_eq (c : Dev nD) (t : Fin cfg1.N) :
    (dat1 (F := Ideal) V c).flushed 4 t
      = ((cfg1.win 4).blk t).view.read (Elt Ideal)
          (scaledSum (V c main_v34) (V c main_v46) (V c main_v36) (V c main_v47)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets]
  funext j
  obtain ⟨r, q, rfl⟩ : ∃ (r : Fin 5000) (q : Fin 128), j = ix2 r q := ⟨j 0, j 1, eq_ix2 j⟩
  have hN : cfg1.N = 20 := N_1
  have hlt : t.val * 5000 + r.val < 100000 := by have := t.isLt; have := r.isLt; omega
  show k1_pay1 (iblk1 V c 2 t) (iblk1 V c 0 t) (iblk1 V c 1 t) (iblk1 V c 3 t) (ix2 r q)
      = scaledSum (V c main_v34) (V c main_v46) (V c main_v36) (V c main_v47) (((cfg1.win 4).blk t).view.emb (ix2 r q))
  refine (k1_payload_apply (iblk1 V c 2 t) (iblk1 V c 0 t) (iblk1 V c 1 t) (iblk1 V c 3 t) r q).trans ?_
  rw [out1_emb t r q ⟨_, hlt⟩ rfl, scaledSum_apply, block1_0_apply V c t r q ⟨_, hlt⟩ rfl,
    block1_1_apply V c t r q ⟨_, hlt⟩ rfl, block1_2_apply V c t r ⟨_, hlt⟩ rfl, block1_3_apply V c t q]

/-- An index of the output array is in point `t`'s block iff, on each axis, its coordinate is in the block's range. -/
theorem mem_block1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v48).slice (win1_4.rect t)).set ↔ _
  rw [View.set_slice_whole, Rect.mem_set_unit]
  exact Iff.rfl

/-- Every index of the output array lies in the block of the point that owns its row: row `p` belongs to point `p / 5000`. -/
theorem covered1 (i : S100000x128.Idx) :
    ∃ t : Fin cfg1.N, (cfg1.win 4).flush t = true ∧ i ∈ ((cfg1.win 4).blk t).view.set := by
  have hi0 : (i 0).val < 100000 := idx2_lt0 i
  have hi1 : (i 1).val < 128 := idx2_lt1 i
  have hN : cfg1.N = 20 := N_1
  have ht : (i 0).val / 5000 < cfg1.N := by omega
  refine ⟨⟨(i 0).val / 5000, ht⟩, flush1_4 _, ?_⟩
  rw [mem_block1]
  obtain ⟨-, -, -, -, -, -, -, -, e0, e1⟩ := block_indices1 ⟨(i 0).val / 5000, ht⟩
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e1]
    omega

/-- The output array after the region is `scaledSum` of the arrays as the region finds them. -/
theorem final1 (c : Dev nD) :
    (dat1 (F := Ideal) V c).arrAt 4 cfg1.N
      = scaledSum (V c main_v34) (V c main_v46) (V c main_v36) (V c main_v47) :=
  (dat1 V c).arrAt_eq_of_cover 4 _ (fun t _ => flushed1_eq V c t) covered1

/-- The second region's output, entry by entry (`scaledSum_apply` opens the right-hand side). -/
theorem region1_apply (c : Dev nD) (p : Fin 100000) (q : Fin 128) :
    (dat1 (F := Ideal) V c).arrAt 4 cfg1.N (ix2 p q)
      = scaledSum (V c main_v34) (V c main_v46) (V c main_v36) (V c main_v47) (ix2 p q) :=
  congrFun (final1 V c) (ix2 p q)

end Cert.KernelIdeal.RegionValue
end
-- ==== Proof.Region2.lean ====
/-
  The third region's output array, entry by entry.

  The region runs over twenty row blocks of 5000 rows.  At block `t` its body reads rows `5000 t … 5000 t + 4999` of two
  `[100000, 128]` arrays `x` and `g`, the whole `[128, 128]` matrix `w` and the whole `[1, 128]` bias row, and stores
  `max (x + g · w + bias) 0` for those rows, the product accumulated from zero.  Row `p` is written by block `p / 5000` and by
  no other, so the array the region leaves has, at `(p, q)`, the value `max (x (p, q) + ∑ₗ g (p, l) · w (l, q) + bias q) 0`.
-/
import proofs.«101062_j15590731285076_2_alg».proof.Proof.Gen.KernelIdeal.Frame
import proofs.«101062_j15590731285076_2_alg».proof.Proof.LibBroadcast
import proofs.«101062_j15590731285076_2_alg».proof.Proof.LibMatmulRead
import proofs.«101062_j15590731285076_2_alg».proof.Proof.LibRowsProduct
import proofs.«101062_j15590731285076_2_alg».proof.Proof.BlockProduct
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- Zero offsets on two axes, as a constant function. -/
theorem zero_offsets2 : (![0, 0] : Fin 2 → Nat) = fun _ => 0 := funext fun a => by fin_cases a <;> rfl

/-! ## The block's arithmetic at one entry -/

/-- Entry `(r, q)` of the block the third region's body stores: the first block's entry plus row `r` of the second block
    times column `q` of the square matrix plus the bias row's entry `q`, cut below at zero. Rounding the product's operands
    to a narrower format changes nothing at the ideal values. -/
theorem k2_payload_apply (x0 x2 : Vec Ideal S5000x128 .f32) (x4 : Vec Ideal S128x128 .f32) (x9 : Vec Ideal S1x128 .f32)
    (r : Fin 5000) (q : Fin 128) :
    k2_pay1 x0 x2 x4 x9 (ix2 r q)
      = max (x0 (ix2 r q) + (∑ l : Fin 128, x2 (ix2 r l) * x4 (ix2 l q)) + x9 (ix2 (0 : Fin 1) q)) (0 : EReal) := by
  unfold k2_pay1
  simp only [shapeCast_self]
  show max (x0 (ix2 r q)
        + matmul dot_S5000x128_S128x128_S5000x128_1_0_0_1_n_n none (truncf .bf16 x2 bitsLt_bf16_f32)
            (truncf .bf16 x4 bitsLt_bf16_f32) (constant (F := Ideal) S5000x128 .f32 0x00000000#32) (ix2 r q)
        + broadcastTo S5000x128 x9 broadcasts_S1x128_S5000x128 (ix2 r q)) (Ideal.ofBits .f32 0x00000000#32) = _
  rw [block_product_apply, Cert.RowsProduct.broadcastTo_1n_an_apply, Ideal.ofBits_zero_f32]
  rfl

/-! ## The whole array the region leaves -/

/-- The array the third region leaves, index by index: `max (x (p, q) + ∑ₗ g (p, l) · w (l, q) + bias q) 0`. -/
def denseRelu (x g : S100000x128.Idx → EReal) (w : S128x128.Idx → EReal) (bias : S1x128.Idx → EReal) :
    S100000x128.Idx → EReal := fun i =>
  max (x i + (∑ l : Fin 128, g (ix2 (⟨(i 0).val, idx2_lt0 i⟩ : Fin 100000) l) * w (ix2 l (⟨(i 1).val, idx2_lt1 i⟩ : Fin 128)))
    + bias (ix2 (0 : Fin 1) (⟨(i 1).val, idx2_lt1 i⟩ : Fin 128))) (0 : EReal)

theorem denseRelu_apply (x g : S100000x128.Idx → EReal) (w : S128x128.Idx → EReal) (bias : S1x128.Idx → EReal)
    (p : Fin 100000) (q : Fin 128) :
    denseRelu x g w bias (ix2 p q)
      = max (x (ix2 p q) + (∑ l : Fin 128, g (ix2 p l) * w (ix2 l q)) + bias (ix2 (0 : Fin 1) q)) 0 := rfl

/-- A block's entry is the whole array's, once each block it reads is known to hold the array's rows: the body's
    arithmetic at row `r` of a block is the array function at the row `P` the block's row `r` is. -/
theorem k2_payload_eq_denseRelu (x g : S100000x128.Idx → EReal) (w : S128x128.Idx → EReal) (bias : S1x128.Idx → EReal)
    (b0 b1 : Vec Ideal S5000x128 .f32) (b2 : Vec Ideal S128x128 .f32) (b3 : Vec Ideal S1x128 .f32)
    (P : Fin 100000) (r : Fin 5000) (q : Fin 128)
    (h0 : b0 (ix2 r q) = x (ix2 P q)) (h1 : ∀ l : Fin 128, b1 (ix2 r l) = g (ix2 P l))
    (h2 : ∀ l : Fin 128, b2 (ix2 l q) = w (ix2 l q)) (h3 : b3 (ix2 (0 : Fin 1) q) = bias (ix2 (0 : Fin 1) q)) :
    k2_pay1 b0 b1 b2 b3 (ix2 r q) = denseRelu x g w bias (ix2 P q) := by
  rw [k2_payload_apply, denseRelu_apply, h0, h3]
  simp only [h1, h2]

/-! ## Where each window's block sits -/

/-- Block indices of the five windows at each of the twenty grid points: the three row-blocked windows are at row block
    `t`, column block `0`; the square matrix and the bias row are whole at every point. -/
theorem block_indices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The first window's block at point `t` holds rows `5000 t … 5000 t + 4999` of its array. -/
theorem block2_0_apply (c : Dev nD) (t : Fin cfg2.N) (r : Fin 5000) (q : Fin 128) (P : Fin 100000)
    (hP : P.val = t.val * 5000 + r.val) :
    (iblk2 V c 0 t : Vec Ideal S5000x128 .f32) (ix2 r q) = (V c main_v48 : S100000x128.Idx → EReal) (ix2 P q) := by
  obtain ⟨e0, e1, -⟩ := block_indices2 t
  unfold iblk2
  show V c main_v48 (((cfg2.win 0).blk t).view.emb (ix2 r q)) = V c main_v48 (ix2 P q)
  refine congrArg (V c main_v48 : S100000x128.Idx → EReal) (funext fun a => Fin.ext ?_)
  match a with
  | ⟨0, _⟩ => show win2_0.index t (0 : Fin 2) * 5000 + 1 * r.val = P.val; rw [e0, hP]; omega
  | ⟨1, _⟩ => show win2_0.index t (1 : Fin 2) * 128 + 1 * q.val = q.val; rw [e1]; omega

/-- The second window's block likewise. -/
theorem block2_1_apply (c : Dev nD) (t : Fin cfg2.N) (r : Fin 5000) (q : Fin 128) (P : Fin 100000)
    (hP : P.val = t.val * 5000 + r.val) :
    (iblk2 V c 1 t : Vec Ideal S5000x128 .f32) (ix2 r q) = (V c main_v71 : S100000x128.Idx → EReal) (ix2 P q) := by
  obtain ⟨-, -, e0, e1, -⟩ := block_indices2 t
  unfold iblk2
  show V c main_v71 (((cfg2.win 1).blk t).view.emb (ix2 r q)) = V c main_v71 (ix2 P q)
  refine congrArg (V c main_v71 : S100000x128.Idx → EReal) (funext fun a => Fin.ext ?_)
  match a with
  | ⟨0, _⟩ => show win2_1.index t (0 : Fin 2) * 5000 + 1 * r.val = P.val; rw [e0, hP]; omega
  | ⟨1, _⟩ => show win2_1.index t (1 : Fin 2) * 128 + 1 * q.val = q.val; rw [e1]; omega

/-- The square matrix's block is the whole matrix at every point. -/
theorem block2_2_apply (c : Dev nD) (t : Fin cfg2.N) (l q : Fin 128) :
    (iblk2 V c 2 t : Vec Ideal S128x128 .f32) (ix2 l q) = (V c main_arg5 : S128x128.Idx → EReal) (ix2 l q) := by
  obtain ⟨-, -, -, -, e0, e1, -⟩ := block_indices2 t
  unfold iblk2
  show V c main_arg5 (((cfg2.win 2).blk t).view.emb (ix2 l q)) = V c main_arg5 (ix2 l q)
  refine congrArg (V c main_arg5 : S128x128.Idx → EReal) (funext fun a => Fin.ext ?_)
  match a with
  | ⟨0, _⟩ => show win2_2.index t (0 : Fin 2) * 128 + 1 * l.val = l.val; rw [e0]; omega
  | ⟨1, _⟩ => show win2_2.index t (1 : Fin 2) * 128 + 1 * q.val = q.val; rw [e1]; omega

/-- The bias row's block is the whole row at every point. -/
theorem block2_3_apply (c : Dev nD) (t : Fin cfg2.N) (q : Fin 128) :
    (iblk2 V c 3 t : Vec Ideal S1x128 .f32) (ix2 (0 : Fin 1) q) = (V c main_v72 : S1x128.Idx → EReal) (ix2 (0 : Fin 1) q) := by
  obtain ⟨-, -, -, -, -, -, e0, e1, -⟩ := block_indices2 t
  unfold iblk2
  show V c main_v72 (((cfg2.win 3).blk t).view.emb (ix2 (0 : Fin 1) q)) = V c main_v72 (ix2 (0 : Fin 1) q)
  refine congrArg (V c main_v72 : S1x128.Idx → EReal) (funext fun a => Fin.ext ?_)
  match a with
  | ⟨0, _⟩ => show win2_3.index t (0 : Fin 2) * 1 + 1 * 0 = 0; rw [e0]
  | ⟨1, _⟩ => show win2_3.index t (1 : Fin 2) * 128 + 1 * q.val = q.val; rw [e1]; omega

/-- Where entry `(r, q)` of the output's block at point `t` sits in the output array. -/
theorem out2_emb (t : Fin cfg2.N) (r : Fin 5000) (q : Fin 128) (P : Fin 100000) (hP : P.val = t.val * 5000 + r.val) :
    (((cfg2.win 4).blk t).view.emb (ix2 r q) : S100000x128.Idx) = ix2 P q := by
  obtain ⟨-, -, -, -, -, -, -, -, e0, e1⟩ := block_indices2 t
  refine funext fun a => Fin.ext ?_
  match a with
  | ⟨0, _⟩ => show win2_4.index t (0 : Fin 2) * 5000 + 1 * r.val = P.val; rw [e0, hP]; omega
  | ⟨1, _⟩ => show win2_4.index t (1 : Fin 2) * 128 + 1 * q.val = q.val; rw [e1]; omega

/-! ## What a point writes back, and the array after the region -/

/-- What point `t` writes back is block `t` of `denseRelu` of the arrays as the region finds them. -/
theorem flushed2_eq (c : Dev nD) (t : Fin cfg2.N) :
    (dat2 (F := Ideal) V c).flushed 4 t
      = ((cfg2.win 4).blk t).view.read (Elt Ideal)
          (denseRelu (V c main_v48) (V c main_v71) (V c main_arg5) (V c main_v72)) := by
  show (cfg2.win 4).cut (grid2.coords t) ((dat2 V c).after 4 t) = _
  rw [after2_4]
  unfold out2_4
  rw [View.canon_unit_zero zero_offsets2]
  simp only [View.ld_unit_zero (S := S5000x128) zero_offsets2, View.ld_unit_zero (S := S128x128) zero_offsets2,
    View.ld_unit_zero (S := S1x128) zero_offsets2]
  funext j
  obtain ⟨r, q, rfl⟩ : ∃ (r : Fin 5000) (q : Fin 128), j = ix2 r q := ⟨j 0, j 1, eq_ix2 j⟩
  have hN : cfg2.N = 20 := N_2
  have hlt : t.val * 5000 + r.val < 100000 := by have := t.isLt; have := r.isLt; omega
  show k2_pay1 (iblk2 V c 0 t) (iblk2 V c 1 t) (iblk2 V c 2 t) (iblk2 V c 3 t) (ix2 r q)
      = denseRelu (V c main_v48) (V c main_v71) (V c main_arg5) (V c main_v72) (((cfg2.win 4).blk t).view.emb (ix2 r q))
  rw [out2_emb t r q ⟨_, hlt⟩ rfl]
  exact k2_payload_eq_denseRelu (V c main_v48) (V c main_v71) (V c main_arg5) (V c main_v72)
    (iblk2 V c 0 t) (iblk2 V c 1 t) (iblk2 V c 2 t) (iblk2 V c 3 t) ⟨_, hlt⟩ r q
    (block2_0_apply V c t r q ⟨_, hlt⟩ rfl) (fun l => block2_1_apply V c t r l ⟨_, hlt⟩ rfl)
    (fun l => block2_2_apply V c t l q) (block2_3_apply V c t q)

/-- An index of the output array is in point `t`'s block iff, on each axis, its coordinate is in the block's range. -/
theorem mem_block2 (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v73).slice (win2_4.rect t)).set ↔ _
  rw [View.set_slice_whole, Rect.mem_set_unit]
  exact Iff.rfl

/-- Every index of the output array lies in the block of the point that owns its row: row `p` belongs to point `p / 5000`. -/
theorem covered2 (i : S100000x128.Idx) :
    ∃ t : Fin cfg2.N, (cfg2.win 4).flush t = true ∧ i ∈ ((cfg2.win 4).blk t).view.set := by
  have hi0 : (i 0).val < 100000 := idx2_lt0 i
  have hi1 : (i 1).val < 128 := idx2_lt1 i
  have hN : cfg2.N = 20 := N_2
  have ht : (i 0).val / 5000 < cfg2.N := by omega
  refine ⟨⟨(i 0).val / 5000, ht⟩, flush2_4 _, ?_⟩
  rw [mem_block2]
  obtain ⟨-, -, -, -, -, -, -, -, e0, e1⟩ := block_indices2 ⟨(i 0).val / 5000, ht⟩
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win2_4.index ⟨(i 0).val / 5000, ht⟩ (1 : Fin 2) * 128 ≤ (i 1).val
      ∧ (i 1).val < win2_4.index ⟨(i 0).val / 5000, ht⟩ (1 : Fin 2) * 128 + 128
    rw [e1]
    omega

/-- The output array after the region is `denseRelu` of the arrays as the region finds them. -/
theorem final2 (c : Dev nD) :
    (dat2 (F := Ideal) V c).arrAt 4 cfg2.N
      = denseRelu (V c main_v48) (V c main_v71) (V c main_arg5) (V c main_v72) :=
  (dat2 V c).arrAt_eq_of_cover 4 _ (fun t _ => flushed2_eq V c t) covered2

/-- The third region's output, entry by entry (`denseRelu_apply` opens the right-hand side). -/
theorem region2_apply (c : Dev nD) (p : Fin 100000) (q : Fin 128) :
    (dat2 (F := Ideal) V c).arrAt 4 cfg2.N (ix2 p q)
      = denseRelu (V c main_v48) (V c main_v71) (V c main_arg5) (V c main_v72) (ix2 p q) :=
  congrFun (final2 V c) (ix2 p q)

end Cert.KernelIdeal.RegionValue
end
-- ==== Proof.GcnCoords.lean ====
/-
  The gathers and the accumulating scatter of the graph-convolution step, read at an index.

  A gather along the rows of an array, at a column of start indices, reads the row whose number is the start index taken
  as a signed integer and clamped into the array; an accumulating scatter along the rows sends update `(e, c)` to
  row `idx[e]` (signed, not clamped), column `c`, and drops it when that row is outside the array.
-/
import proofs.«101062_j15590731285076_2_alg».proof.Proof.Gen.ReferenceIdeal.Read

noncomputable section

namespace Cert.ReferenceIdeal.GcnNorm

open Cert.ReferenceIdeal Cert.ReferenceIdeal.Read Idealize.ShloMosaic Idealize.ShloMosaic.ValueIdx

/-! ## Start indices as rows -/

/-- The row a start index names: the word read as a signed integer, clamped into `[0, 99999]`. -/
def clampRow {w : Nat} (b : BitVec w) : Fin 100000 := ⟨min b.toInt.toNat 99999, by omega⟩

/-- A start index whose signed value is a row number names that row. -/
theorem clampRow_of_toInt {w : Nat} (b : BitVec w) (p : Fin 100000) (h : b.toInt = (p.val : Int)) : clampRow b = p := by
  refine Fin.ext ?_
  show min b.toInt.toNat 99999 = p.val
  have := p.isLt
  omega

/-! ## The gather of a vector at a column of start indices -/

/-- Entry `e` of the gathered vector is the operand at the start index `idx[e, 0]`, signed and clamped into `[0, 99999]`. -/
theorem gather_vec_apply {α : Type} {w : Nat} (x : S100000.Idx → α) (idx : IVec S600000x1 w) (e : Fin 600000) :
    Host.gather gather_S100000_S600000x1_S600000_n_0_n_n_0_1_1 x idx (ix1 e)
      = x (ix1 (clampRow (idx (ix2 e (0 : Fin 1))))) := by
  unfold Host.gather
  congr 1
  funext a
  obtain rfl : a = 0 := Subsingleton.elim _ _
  refine Fin.ext ?_
  show gather_S100000_S600000x1_S600000_n_0_n_n_0_1_1.start (ix1 e) idx 0
      + gather_S100000_S600000x1_S600000_n_0_n_n_0_1_1.batchCoord (ix1 e) 0
      + gather_S100000_S600000x1_S600000_n_0_n_n_0_1_1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S100000_S600000x1_S600000_n_0_n_n_0_1_1.startIndexMap from List.mem_singleton.mpr rfl)]
  have hsi : gather_S100000_S600000x1_S600000_n_0_n_n_0_1_1.siIdx (ix1 e)
      ⟨List.idxOf (0 : Fin 1) gather_S100000_S600000x1_S600000_n_0_n_n_0_1_1.startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The gather of rows of a matrix at a column of start indices -/

/-- The operand index the row gather reads for result index `(e, c)`: row `idx[e, 0]` signed and clamped, column `c`. -/
theorem gather_rows_operandIdx {w : Nat} (idx : IVec S600000x1 w) (e : Fin 600000) (c : Fin 128) :
    gather_S100000x128_S600000x1_S600000x128_1_0_n_n_0_1_1128.operandIdx (ix2 e c) idx
      = ix2 (clampRow (idx (ix2 e (0 : Fin 1)))) c := by
  funext a
  refine Fin.ext ?_
  show gather_S100000x128_S600000x1_S600000x128_1_0_n_n_0_1_1128.start (ix2 e c) idx a
      + gather_S100000x128_S600000x1_S600000x128_1_0_n_n_0_1_1128.batchCoord (ix2 e c) a
      + gather_S100000x128_S600000x1_S600000x128_1_0_n_n_0_1_1128.offCoord (ix2 e c) a = _
  rw [GatherDims.batchCoord_eq_zero _ _ _ List.not_mem_nil]
  have ha : a = (0 : Fin 2) ∨ a = (1 : Fin 2) := by
    rcases a with ⟨a, ha⟩
    have h2 : a < 2 := ha
    have : a = 0 ∨ a = 1 := by omega
    rcases this with rfl | rfl
    · exact Or.inl rfl
    · exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S600000x1_S600000x128_1_0_n_n_0_1_1128.startIndexMap from List.mem_singleton.mpr rfl)]
    have hsi : gather_S100000x128_S600000x1_S600000x128_1_0_n_n_0_1_1128.siIdx (ix2 e c)
        ⟨List.idxOf (0 : Fin 2) gather_S100000x128_S600000x1_S600000x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start GatherDims.offCoord
    rw [dif_neg (show ¬ (1 : Fin 2) ∈ gather_S100000x128_S600000x1_S600000x128_1_0_n_n_0_1_1128.startIndexMap by decide),
      dif_pos (show (1 : Fin 2) ∈ gather_S100000x128_S600000x1_S600000x128_1_0_n_n_0_1_1128.sKept by decide)]
    show 0 + 0 + c.val = c.val
    omega

/-- Entry `(e, c)` of the gathered rows is the operand at row `idx[e, 0]` (signed, clamped), column `c`. -/
theorem gather_rows_apply {α : Type} {w : Nat} (x : S100000x128.Idx → α) (idx : IVec S600000x1 w) (e : Fin 600000) (c : Fin 128) :
    Host.gather gather_S100000x128_S600000x1_S600000x128_1_0_n_n_0_1_1128 x idx (ix2 e c)
      = x (ix2 (clampRow (idx (ix2 e (0 : Fin 1)))) c) := by
  unfold Host.gather
  rw [gather_rows_operandIdx]

/-! ## Where an update of the accumulating row scatter lands -/

theorem scatter_rows_start0 {w : Nat} (idx : IVec S600000x1 w) (e : Fin 600000) (c : Fin 128) :
    scatter_S100000x128_S600000x1_S600000x128_1_0_0_1.start (ix2 e c) idx 0 = (idx (ix2 e (0 : Fin 1))).toInt := by
  unfold ScatterDims.start
  rw [dif_pos (show (0 : Fin 2) ∈ scatter_S100000x128_S600000x1_S600000x128_1_0_0_1.scatterDimsToOperandDims from List.mem_singleton.mpr rfl)]
  have hsi : scatter_S100000x128_S600000x1_S600000x128_1_0_0_1.siIdx (ix2 e c)
      ⟨List.idxOf (0 : Fin 2) scatter_S100000x128_S600000x1_S600000x128_1_0_0_1.scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatter_rows_start1 {w : Nat} (idx : IVec S600000x1 w) (j : S600000x128.Idx) :
    scatter_S100000x128_S600000x1_S600000x128_1_0_0_1.start j idx 1 = 0 := by
  unfold ScatterDims.start
  rw [dif_neg (show ¬ (1 : Fin 2) ∈ scatter_S100000x128_S600000x1_S600000x128_1_0_0_1.scatterDimsToOperandDims by decide)]

theorem scatter_rows_window0 (j : S600000x128.Idx) :
    scatter_S100000x128_S600000x1_S600000x128_1_0_0_1.window j 0 = 0 := by
  unfold ScatterDims.window
  rw [dif_neg (show ¬ (0 : Fin 2) ∈ scatter_S100000x128_S600000x1_S600000x128_1_0_0_1.sKept by decide)]

theorem scatter_rows_window1 (e : Fin 600000) (c : Fin 128) :
    scatter_S100000x128_S600000x1_S600000x128_1_0_0_1.window (ix2 e c) 1 = c.val := by
  unfold ScatterDims.window
  rw [dif_pos (show (1 : Fin 2) ∈ scatter_S100000x128_S600000x1_S600000x128_1_0_0_1.sKept by decide)]
  rfl

/-- An update `(e, c)` that lands on `(p, q)` has destination `idx[e, 0] = p` as a signed integer, and `c = q`. -/
theorem scatter_rows_lands {w : Nat} (idx : IVec S600000x1 w) (e : Fin 600000) (c : Fin 128) (p : Fin 100000) (q : Fin 128)
    (h : scatter_S100000x128_S600000x1_S600000x128_1_0_0_1.resultIdx? (ix2 e c) idx = some (ix2 p q)) :
    (idx (ix2 e (0 : Fin 1))).toInt = (p.val : Int) ∧ c = q := by
  unfold ScatterDims.resultIdx? at h
  split at h
  · rename_i hin
    have h' := Option.some.inj h
    have h0 := congrArg (fun f => (f 0).val) h'
    have h1 := congrArg (fun f => (f 1).val) h'
    have hin0 := hin 0
    simp only [scatter_rows_start0, scatter_rows_window0] at h0 hin0
    simp only [scatter_rows_start1, scatter_rows_window1] at h1
    refine ⟨?_, Fin.ext ?_⟩
    · change ((idx (ix2 e (0 : Fin 1))).toInt + ((0 : Nat) : Int)).toNat = p.val at h0
      omega
    · change ((0 : Int) + (c.val : Int)).toNat = q.val at h1
      omega
  · exact absurd h (by simp)

end Cert.ReferenceIdeal.GcnNorm

end
-- ==== Proof.LibScaledSum.lean ====
/-
  A nonnegative finite scalar through a finite sum of extended reals, and the reciprocal square root of a count.

  In the extended reals multiplication does not distribute over addition in general (`⊤ + ⊥` is junk), but a factor
  `a` with `0 ≤ a < ⊤` does distribute: `a * (x + y) = a * x + a * y` and hence `a * ∑ f = ∑ a * f` for arbitrary
  terms.  A sum of `k` ones plus one is the real `k + 1 ≥ 1`; its reciprocal square root is a positive real `a` with
  `a * a = 1 / (k + 1)`.  Together these turn `∑ (b_j * a) * h_j + h * (1 / (k + 1))` into
  `a * (∑ h_j * b_j + h * a)`.
-/
import Idealize.ShloMosaic.PureOps.Ideal

noncomputable section

namespace Cert.ScaledSum

open Idealize.ShloMosaic

/-- A nonnegative finite factor distributes over a finite sum of arbitrary extended reals. -/
theorem mul_sum {ι : Type*} {a : EReal} (ha : 0 ≤ a) (ha' : a ≠ ⊤) (J : Finset ι) (f : ι → EReal) :
    a * ∑ j ∈ J, f j = ∑ j ∈ J, a * f j := by
  classical
  induction J using Finset.induction_on with
  | empty => simp
  | insert j J hj ih =>
    rw [Finset.sum_insert hj, Finset.sum_insert hj, EReal.left_distrib_of_nonneg_of_ne_top ha ha', ih]

/-- A sum of ones over a finite set is its cardinality. -/
theorem sum_ones {ι : Type*} (J : Finset ι) : ∑ _j ∈ J, (1 : EReal) = ((J.card : ℝ) : EReal) := by
  rw [Finset.sum_const, ← EReal.coe_one, ← EReal.coe_nsmul, nsmul_eq_mul, mul_one]

/-- Zero plus `k` ones plus one is the real number `k + 1`. -/
theorem count_add_one {ι : Type*} (J : Finset ι) :
    (0 : EReal) + ∑ _j ∈ J, (1 : EReal) + 1 = (((J.card : ℝ) + 1 : ℝ) : EReal) := by
  rw [sum_ones, zero_add, EReal.coe_add, EReal.coe_one]

/-- Zero plus a sum of terms all equal to one, plus one, is a natural number plus one. -/
theorem exists_count {ι : Type*} (J : Finset ι) (f : ι → EReal) (hf : ∀ j, f j = 1) (z o : EReal) (hz : z = 0) (ho : o = 1) :
    ∃ k : ℕ, z + ∑ j ∈ J, f j + o = (((k : ℝ) + 1 : ℝ) : EReal) := by
  subst hz ho
  exact ⟨J.card, by rw [Finset.sum_congr rfl (fun j _ => hf j)]; exact count_add_one J⟩

/-- The single-precision word `0x3F800000` denotes `1`. -/
theorem ofBits_one_f32 : Ideal.ofBits .f32 0x3F800000#32 = 1 := by
  simp [Ideal.ofBits, Ideal.ieee, -EReal.coe_mul]; norm_num

/-- The reciprocal square root of a positive real. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal of a positive real is the square of its reciprocal square root. -/
theorem div_one_coe_pos {r : ℝ} (hr : 0 < r) :
    Ideal.div 1 (r : EReal) = ((((Real.sqrt r)⁻¹ * (Real.sqrt r)⁻¹ : ℝ)) : EReal) := by
  rw [Ideal.div_coe hr.ne', one_mul, ← mul_inv, Real.mul_self_sqrt hr.le, one_div]

/-- The reciprocal square root of a positive real is a nonnegative real. -/
theorem rsqrt_nonneg (r : ℝ) : 0 ≤ (Real.sqrt r)⁻¹ := inv_nonneg.mpr (Real.sqrt_nonneg r)

/-- THE REARRANGEMENT.  With `a ≥ 0` real: `(z + ∑ (b_j * a) * h_j) + g * (a * a) + c = a * ((z + ∑ h_j * b_j) + g * a) + c`
    when `z = 0`, for arbitrary extended reals `b_j`, `h_j`, `g`, `c`. -/
theorem rearrange {ι : Type*} (J : Finset ι) {a : ℝ} (ha : 0 ≤ a) (b h : ι → EReal) (g c z : EReal) (hz : z = 0) :
    (z + ∑ j ∈ J, (b j * (a : EReal)) * h j) + g * ((a * a : ℝ) : EReal) + c
      = (a : EReal) * ((z + ∑ j ∈ J, h j * b j) + g * (a : EReal)) + c := by
  subst hz
  have ha0 : (0 : EReal) ≤ (a : EReal) := EReal.coe_nonneg.mpr ha
  have hat : (a : EReal) ≠ ⊤ := EReal.coe_ne_top a
  rw [zero_add, zero_add, EReal.left_distrib_of_nonneg_of_ne_top ha0 hat, mul_sum ha0 hat, EReal.coe_mul]
  congr 2
  · refine Finset.sum_congr rfl fun j _ => ?_
    rw [mul_comm (b j) (a : EReal), mul_assoc, mul_comm (b j) (h j)]
  · rw [mul_comm g ((a : EReal) * (a : EReal)), mul_assoc, mul_comm (a : EReal) g]

end Cert.ScaledSum

end
-- ==== Proof.GcnNorm.lean ====
/-
  The normalisation step of the graph convolution, rearranged.

  With `h` the transformed features, `s`, `d` the source and destination rows of the edge array, `deg[n]` one plus the
  number of edges whose destination is `n`, and `dinv = deg^(-1/2)`, the program computes
      x[n] = ∑_{e : d[e] = n} (dinv[s[e]] * dinv[d[e]]) * h[s[e]]  +  h[n] * (1 / deg[n])  +  b.
  Every edge in the sum has `d[e] = n`, `deg[n]` is a real number at least one, so `dinv[n]` is a nonnegative real with
  `dinv[n] * dinv[n] = 1 / deg[n]`, and a nonnegative real factor distributes over sums of extended reals; hence
      x[n] = dinv[n] * ( ∑_{e : d[e] = n} hs[s[e]] + hs[n] ) + b,     hs[m] = h[m] * dinv[m].
-/
import proofs.«101062_j15590731285076_2_alg».proof.Proof.GcnCoords
import proofs.«101062_j15590731285076_2_alg».proof.Proof.LibScaledSum

noncomputable section

namespace Cert.ReferenceIdeal.GcnNorm

open Cert.ReferenceIdeal Cert.ReferenceIdeal.Read Idealize.ShloMosaic Idealize.ShloMosaic.ValueIdx

/-! ## Words -/

/-- A word that is nonnegative as a signed integer is not below zero: the select on "below zero" keeps its second operand. -/
theorem select_slt_zero_of_nonneg {α : Type} (x : BitVec 32) (hx : 0 ≤ x.toInt) (a b : α) :
    Scalar.select (IntOp.cmpi .slt x 0#32) a b = b := by
  have h0 : IntOp.cmpi .slt x 0#32 = 0#1 := by
    show BitVec.ofBool (x.slt 0#32) = 0#1
    have hs : x.slt 0#32 = false := by
      rw [BitVec.slt, BitVec.toInt_zero]
      exact decide_eq_false (not_lt.mpr hx)
    rw [hs]; rfl
  rw [h0, select_zero]

/-! ## The edge rows at an index -/

/-- Entry `(e, 0)` of a column re-laid from a vector reads entry `e` of the vector (the five columns of this step). -/
theorem idx46_ix2 (e : Fin 600000) : idx_main_v46 (ix2 e (0 : Fin 1)) = ix1 e := by
  funext a; match a with | ⟨0, _⟩ => rfl
theorem idx53_ix2 (e : Fin 600000) : idx_main_v53 (ix2 e (0 : Fin 1)) = ix1 e := by
  funext a; match a with | ⟨0, _⟩ => rfl
theorem idx62_ix2 (e : Fin 600000) : idx_main_v62 (ix2 e (0 : Fin 1)) = ix1 e := by
  funext a; match a with | ⟨0, _⟩ => rfl
theorem idx67_ix2 (e : Fin 600000) : idx_main_v67 (ix2 e (0 : Fin 1)) = ix1 e := by
  funext a; match a with | ⟨0, _⟩ => rfl
/-- Entry `(e, c)` of the edge weights broadcast along the feature axis reads weight `e`. -/
theorem idx56_64_ix2 (e : Fin 600000) (c : Fin 128) : idx_main_v56 (idx_main_v64 (ix2 e c)) = ix1 e := by
  funext a; match a with | ⟨0, _⟩ => rfl

/-- The two copies of the shifted source row are the same function. -/
theorem v45_eq_v61 (x8 : (⟨S2x600000, .i32⟩ : BufTy).Contents (Elt Ideal)) : val_main_v45 (F := Ideal) x8 = val_main_v61 (F := Ideal) x8 := rfl

/-- The shifted destination is the destination itself where that is nonnegative. -/
theorem v52_of_nonneg (x8 : (⟨S2x600000, .i32⟩ : BufTy).Contents (Elt Ideal)) (e : Fin 600000) (h : 0 ≤ (val_main_v32 (F := Ideal) x8 (ix1 e)).toInt) :
    val_main_v52 (F := Ideal) x8 (ix1 e) = val_main_v32 (F := Ideal) x8 (ix1 e) := by
  rw [val_main_v52_apply, val_main_v49_apply, val_main_v48_apply, val_main_c_9_apply]
  exact select_slt_zero_of_nonneg _ h _ _

/-- `dinv` gathered at the shifted sources. -/
theorem v47_apply (x8 : (⟨S2x600000, .i32⟩ : BufTy).Contents (Elt Ideal)) (e : Fin 600000) :
    val_main_v47 (F := Ideal) x8 (ix1 e) = val_main_v40 (F := Ideal) x8 (ix1 (clampRow (val_main_v61 (F := Ideal) x8 (ix1 e)))) := by
  unfold val_main_v47
  rw [gather_vec_apply, val_main_v46_apply, idx46_ix2, v45_eq_v61]

/-- `dinv` gathered at the shifted destinations. -/
theorem v54_apply (x8 : (⟨S2x600000, .i32⟩ : BufTy).Contents (Elt Ideal)) (e : Fin 600000) :
    val_main_v54 (F := Ideal) x8 (ix1 e) = val_main_v40 (F := Ideal) x8 (ix1 (clampRow (val_main_v52 (F := Ideal) x8 (ix1 e)))) := by
  unfold val_main_v54
  rw [gather_vec_apply, val_main_v53_apply, idx53_ix2]

/-- The rows of `h` gathered at the shifted sources. -/
theorem v63_apply (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S128x128, .f32⟩ : BufTy).Contents (Elt Ideal)) (x7 : (⟨S2x100000, .i32⟩ : BufTy).Contents (Elt Ideal)) (x8 : (⟨S2x600000, .i32⟩ : BufTy).Contents (Elt Ideal)) (e : Fin 600000) (c : Fin 128) :
    val_main_v63 (F := Ideal) x0 x1 x2 x3 x7 x8 (ix2 e c)
      = val_main_v33 (F := Ideal) x0 x1 x2 x3 x7 (ix2 (clampRow (val_main_v61 (F := Ideal) x8 (ix1 e))) c) := by
  unfold val_main_v63
  rw [gather_rows_apply, val_main_v62_apply, idx62_ix2]

/-- Any array gathered by rows at the shifted sources. -/
theorem gather_v62_apply (hs : S100000x128.Idx → EReal) (x8 : (⟨S2x600000, .i32⟩ : BufTy).Contents (Elt Ideal)) (e : Fin 600000) (c : Fin 128) :
    Host.gather gather_S100000x128_S600000x1_S600000x128_1_0_n_n_0_1_1128 hs (val_main_v62 (F := Ideal) x8) (ix2 e c)
      = hs (ix2 (clampRow (val_main_v61 (F := Ideal) x8 (ix1 e))) c) := by
  rw [gather_rows_apply, val_main_v62_apply, idx62_ix2]

/-! ## The degree and its reciprocal square root -/

/-- The degree of a node is a count plus one. -/
theorem deg_eq (x8 : (⟨S2x600000, .i32⟩ : BufTy).Contents (Elt Ideal)) (n : Fin 100000) :
    ∃ k : ℕ, val_main_v39 (F := Ideal) x8 (ix1 n) = (((k : ℝ) + 1 : ℝ) : EReal) := by
  have h37 : val_main_v37 (F := Ideal) x8
      = Ideal.hostScatterAdd scatter_S100000_S600000x1_S600000_n_0_0_1 (val_main_v35 (F := Ideal))
          (val_main_v36 (F := Ideal) x8) (val_main_v34 (F := Ideal)) := rfl
  have h35 : val_main_v35 (F := Ideal) (ix1 n) = 0 := by
    rw [val_main_v35_apply, val_main_cst_5_apply, Ideal.ofBits_def]; exact Ideal.ofBits_zero_f32
  have h38 : val_main_v38 (F := Ideal) (ix1 n) = 1 := by
    rw [val_main_v38_apply, val_main_cst_6_apply, Ideal.ofBits_def]; exact Cert.ScaledSum.ofBits_one_f32
  have h34 : ∀ j, val_main_v34 (F := Ideal) j = 1 := fun j => by
    rw [val_main_v34_apply, val_main_cst_4_apply, Ideal.ofBits_def]; exact Cert.ScaledSum.ofBits_one_f32
  rw [val_main_v39_apply, h37, Ideal.addf_def]
  unfold Ideal.hostScatterAdd
  exact Cert.ScaledSum.exists_count _ _ h34 _ _ h35 h38

/-- `dinv[n]` is a nonnegative real whose square is the reciprocal of the degree. -/
theorem dinv_facts (x8 : (⟨S2x600000, .i32⟩ : BufTy).Contents (Elt Ideal)) (n : Fin 100000) :
    ∃ a : ℝ, 0 ≤ a ∧ val_main_v40 (F := Ideal) x8 (ix1 n) = (a : EReal)
      ∧ Ideal.div 1 (val_main_v39 (F := Ideal) x8 (ix1 n)) = ((a * a : ℝ) : EReal) := by
  obtain ⟨k, hk⟩ := deg_eq x8 n
  have hr : (0 : ℝ) < (k : ℝ) + 1 := by positivity
  refine ⟨(Real.sqrt ((k : ℝ) + 1))⁻¹, Cert.ScaledSum.rsqrt_nonneg _, ?_, ?_⟩
  · rw [val_main_v40_apply, Ideal.hostUnary_rsqrt_def, hk]
    exact Cert.ScaledSum.rsqrt_coe_pos hr
  · rw [hk]
    exact Cert.ScaledSum.div_one_coe_pos hr

/-! ## The step at an index -/

/-- The program's result at `(p, q)`: the accumulated edge terms, the self term, the bias. -/
theorem v77_expand
    (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal))
    (x7 : (⟨S2x100000, .i32⟩ : BufTy).Contents (Elt Ideal)) (x8 : (⟨S2x600000, .i32⟩ : BufTy).Contents (Elt Ideal)) (p : Fin 100000) (q : Fin 128) :
    val_main_v77 (F := Ideal) x0 x1 x2 x3 x4 x7 x8 (ix2 p q)
      = Ideal.hostScatterAdd scatter_S100000x128_S600000x1_S600000x128_1_0_0_1 (val_main_v66 (F := Ideal))
            (val_main_v67 (F := Ideal) x8) (val_main_v65 (F := Ideal) x0 x1 x2 x3 x7 x8) (ix2 p q)
          + val_main_v33 (F := Ideal) x0 x1 x2 x3 x7 (ix2 p q) * Ideal.div 1 (val_main_v39 (F := Ideal) x8 (ix1 p))
          + x4 (ix1 q) := by
  have e1 : idx_main_v71 (idx_main_v72 (ix2 p q)) = ix1 p := by
    funext a; match a with | ⟨0, _⟩ => rfl
  have e2 : idx_main_v75 (idx_main_v76 (ix2 p q)) = ix1 q := by
    funext a; match a with | ⟨0, _⟩ => rfl
  have h68 : val_main_v68 (F := Ideal) x0 x1 x2 x3 x7 x8
      = Ideal.hostScatterAdd scatter_S100000x128_S600000x1_S600000x128_1_0_0_1 (val_main_v66 (F := Ideal))
          (val_main_v67 (F := Ideal) x8) (val_main_v65 (F := Ideal) x0 x1 x2 x3 x7 x8) := rfl
  rw [val_main_v77_apply, val_main_v74_apply, val_main_v73_apply, val_main_v76_apply, val_main_v75_apply,
    val_main_v72_apply, val_main_v71_apply, val_main_v70_apply, val_main_v69_apply, val_main_cst_14_apply,
    Ideal.ofBits_def, Cert.ScaledSum.ofBits_one_f32, e1, e2, h68, Ideal.addf_def, Ideal.addf_def, Ideal.mulf_def,
    Ideal.hostDivf_def]

/-- One edge term of the program, for an edge that lands on row `p`. -/
theorem edge_term (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S128x128, .f32⟩ : BufTy).Contents (Elt Ideal)) (x7 : (⟨S2x100000, .i32⟩ : BufTy).Contents (Elt Ideal)) (x8 : (⟨S2x600000, .i32⟩ : BufTy).Contents (Elt Ideal))
    (e : Fin 600000) (c : Fin 128) (p : Fin 100000) (q : Fin 128)
    (h : scatter_S100000x128_S600000x1_S600000x128_1_0_0_1.resultIdx? (ix2 e c) (val_main_v67 (F := Ideal) x8) = some (ix2 p q)) :
    val_main_v65 (F := Ideal) x0 x1 x2 x3 x7 x8 (ix2 e c)
      = (val_main_v40 (F := Ideal) x8 (ix1 (clampRow (val_main_v61 (F := Ideal) x8 (ix1 e)))) * val_main_v40 (F := Ideal) x8 (ix1 p))
          * val_main_v33 (F := Ideal) x0 x1 x2 x3 x7 (ix2 (clampRow (val_main_v61 (F := Ideal) x8 (ix1 e))) c) := by
  obtain ⟨hd, -⟩ := scatter_rows_lands _ e c p q h
  rw [val_main_v67_apply, idx67_ix2] at hd
  have hd' : (val_main_v32 (F := Ideal) x8 (ix1 e)).toInt = (p.val : Int) := hd
  have h52 : val_main_v52 (F := Ideal) x8 (ix1 e) = val_main_v32 (F := Ideal) x8 (ix1 e) :=
    v52_of_nonneg x8 e (by rw [hd']; exact Int.natCast_nonneg _)
  have hrow : clampRow (val_main_v52 (F := Ideal) x8 (ix1 e)) = p := by
    rw [h52]; exact clampRow_of_toInt _ p hd'
  rw [val_main_v65_apply, val_main_v64_apply, val_main_v56_apply, v63_apply, Ideal.mulf_def, idx56_64_ix2,
    val_main_v55_apply, Ideal.mulf_def, v47_apply, v54_apply, hrow]

/-- One gathered row of the rescaled features. -/
theorem gathered_term (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S128x128, .f32⟩ : BufTy).Contents (Elt Ideal)) (x7 : (⟨S2x100000, .i32⟩ : BufTy).Contents (Elt Ideal)) (x8 : (⟨S2x600000, .i32⟩ : BufTy).Contents (Elt Ideal))
    (hs : S100000x128.Idx → EReal)
    (hhs : ∀ (a : Fin 100000) (b : Fin 128), hs (ix2 a b) = val_main_v33 (F := Ideal) x0 x1 x2 x3 x7 (ix2 a b) * val_main_v40 (F := Ideal) x8 (ix1 a))
    (e : Fin 600000) (c : Fin 128) :
    Host.gather gather_S100000x128_S600000x1_S600000x128_1_0_n_n_0_1_1128 hs (val_main_v62 (F := Ideal) x8) (ix2 e c)
      = val_main_v33 (F := Ideal) x0 x1 x2 x3 x7 (ix2 (clampRow (val_main_v61 (F := Ideal) x8 (ix1 e))) c)
          * val_main_v40 (F := Ideal) x8 (ix1 (clampRow (val_main_v61 (F := Ideal) x8 (ix1 e)))) := by
  rw [gather_v62_apply, hhs]

/-- The rearrangement over any set of updates that all land on `(p, q)`. -/
theorem core (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S128x128, .f32⟩ : BufTy).Contents (Elt Ideal)) (x7 : (⟨S2x100000, .i32⟩ : BufTy).Contents (Elt Ideal)) (x8 : (⟨S2x600000, .i32⟩ : BufTy).Contents (Elt Ideal))
    (hs : S100000x128.Idx → EReal)
    (hhs : ∀ (a : Fin 100000) (b : Fin 128), hs (ix2 a b) = val_main_v33 (F := Ideal) x0 x1 x2 x3 x7 (ix2 a b) * val_main_v40 (F := Ideal) x8 (ix1 a))
    (p : Fin 100000) (q : Fin 128) (J : Finset S600000x128.Idx)
    (hJ : ∀ j ∈ J, scatter_S100000x128_S600000x1_S600000x128_1_0_0_1.resultIdx? j (val_main_v67 (F := Ideal) x8) = some (ix2 p q))
    (a : ℝ) (ha0 : 0 ≤ a) (hAa : val_main_v40 (F := Ideal) x8 (ix1 p) = (a : EReal)) (z g c : EReal) (hz : z = 0) :
    (z + ∑ j ∈ J, val_main_v65 (F := Ideal) x0 x1 x2 x3 x7 x8 j) + g * ((a * a : ℝ) : EReal) + c
      = (a : EReal) * ((z + ∑ j ∈ J, Host.gather gather_S100000x128_S600000x1_S600000x128_1_0_n_n_0_1_1128 hs (val_main_v62 (F := Ideal) x8) j)
          + g * (a : EReal)) + c := by
  have hL : ∀ j ∈ J, val_main_v65 (F := Ideal) x0 x1 x2 x3 x7 x8 j
      = (val_main_v40 (F := Ideal) x8 (ix1 (clampRow (val_main_v61 (F := Ideal) x8 (ix1 (j 0))))) * (a : EReal))
          * val_main_v33 (F := Ideal) x0 x1 x2 x3 x7 (ix2 (clampRow (val_main_v61 (F := Ideal) x8 (ix1 (j 0)))) (j 1)) := fun j hj => by
    have hj' := hJ j hj
    obtain ⟨e, c', rfl⟩ : ∃ (e : Fin 600000) (c' : Fin 128), j = ix2 e c' := ⟨j 0, j 1, eq_ix2 j⟩
    have := edge_term x0 x1 x2 x3 x7 x8 e c' p q hj'
    rw [hAa] at this
    exact this
  have hG : ∀ j ∈ J, Host.gather gather_S100000x128_S600000x1_S600000x128_1_0_n_n_0_1_1128 hs (val_main_v62 (F := Ideal) x8) j
      = val_main_v33 (F := Ideal) x0 x1 x2 x3 x7 (ix2 (clampRow (val_main_v61 (F := Ideal) x8 (ix1 (j 0)))) (j 1))
          * val_main_v40 (F := Ideal) x8 (ix1 (clampRow (val_main_v61 (F := Ideal) x8 (ix1 (j 0))))) := fun j _ => by
    obtain ⟨e, c', rfl⟩ : ∃ (e : Fin 600000) (c' : Fin 128), j = ix2 e c' := ⟨j 0, j 1, eq_ix2 j⟩
    exact gathered_term x0 x1 x2 x3 x7 x8 hs hhs e c'
  rw [Finset.sum_congr rfl hL, Finset.sum_congr rfl hG]
  exact Cert.ScaledSum.rearrange J ha0
    (fun j => val_main_v40 (F := Ideal) x8 (ix1 (clampRow (val_main_v61 (F := Ideal) x8 (ix1 (j 0))))))
    (fun j => val_main_v33 (F := Ideal) x0 x1 x2 x3 x7 (ix2 (clampRow (val_main_v61 (F := Ideal) x8 (ix1 (j 0)))) (j 1)))
    g c z hz

/-- THE STEP REARRANGED: the program's normalised aggregation at `(p, q)` is `dinv[p]` times the accumulated rescaled
    rows plus the node's own rescaled row, plus the bias. -/
theorem x2_apply
    (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal))
    (x7 : (⟨S2x100000, .i32⟩ : BufTy).Contents (Elt Ideal)) (x8 : (⟨S2x600000, .i32⟩ : BufTy).Contents (Elt Ideal))
    (hs : S100000x128.Idx → EReal)
    (hhs : ∀ (a : Fin 100000) (b : Fin 128), hs (ix2 a b) = val_main_v33 (F := Ideal) x0 x1 x2 x3 x7 (ix2 a b) * val_main_v40 (F := Ideal) x8 (ix1 a))
    (p : Fin 100000) (q : Fin 128) :
    val_main_v77 (F := Ideal) x0 x1 x2 x3 x4 x7 x8 (ix2 p q)
      = val_main_v40 (F := Ideal) x8 (ix1 p)
          * (Host.scatterAdd (F := Ideal) (φ := .f32) scatter_S100000x128_S600000x1_S600000x128_1_0_0_1 (val_main_v66 (F := Ideal)) (val_main_v67 (F := Ideal) x8)
               (Host.gather gather_S100000x128_S600000x1_S600000x128_1_0_n_n_0_1_1128 hs (val_main_v62 (F := Ideal) x8)) (ix2 p q)
             + hs (ix2 p q))
        + x4 (ix1 q) := by
  obtain ⟨a, ha0, hAa, hdiv⟩ := dinv_facts x8 p
  have hz : val_main_v66 (F := Ideal) (ix2 p q) = 0 := by
    rw [val_main_v66_apply, val_main_cst_13_apply, Ideal.ofBits_def]; exact Ideal.ofBits_zero_f32
  have hR : Host.scatterAdd (F := Ideal) (φ := .f32) scatter_S100000x128_S600000x1_S600000x128_1_0_0_1 (val_main_v66 (F := Ideal)) (val_main_v67 (F := Ideal) x8)
        (Host.gather gather_S100000x128_S600000x1_S600000x128_1_0_n_n_0_1_1128 hs (val_main_v62 (F := Ideal) x8))
      = Ideal.hostScatterAdd scatter_S100000x128_S600000x1_S600000x128_1_0_0_1 (val_main_v66 (F := Ideal)) (val_main_v67 (F := Ideal) x8)
        (Host.gather gather_S100000x128_S600000x1_S600000x128_1_0_n_n_0_1_1128 hs (val_main_v62 (F := Ideal) x8)) := rfl
  rw [v77_expand, hR, hhs p q, hdiv, hAa]
  unfold Ideal.hostScatterAdd
  exact core x0 x1 x2 x3 x7 x8 hs hhs p q _ (fun j hj => (Finset.mem_filter.mp hj).2) a ha0 hAa _ _ _ hz

end Cert.ReferenceIdeal.GcnNorm

end
-- ==== Proof.Bridge.lean ====
/-
  The kernel program's result is the reference's result term of the same arguments.

  Going through the three regions in order.  Region 0 leaves `hs`: at `(p, q)` the reference's hidden features
  `h(p, q)` times the degree scale `dinv(p)` — both sides are the same sum over the hidden axis of
  `max (x + mean · W_down + b_down) 0 · W_gcn`, the bias read through a row re-layout and the scale through a column
  re-layout.  Region 1 leaves `dinv · (sum of hs over the edges + hs) + b_gcn`, which is the reference's convolved
  features: the two arrangements of the normalised convolution.  Region 2 leaves
  `relu(conv + mean₂(conv) · W_up + b_up)`, and the second mean is one function of the features it averages, so with
  the convolved features equal the results are equal entry by entry.
-/
import proofs.«101062_j15590731285076_2_alg».proof.Proof.KernelHost
import proofs.«101062_j15590731285076_2_alg».proof.Proof.RefDense
import proofs.«101062_j15590731285076_2_alg».proof.Proof.Region0
import proofs.«101062_j15590731285076_2_alg».proof.Proof.Region1
import proofs.«101062_j15590731285076_2_alg».proof.Proof.Region2
import proofs.«101062_j15590731285076_2_alg».proof.Proof.GcnNorm
import proofs.«101062_j15590731285076_2_alg».proof.Proof.LibBroadcast
import Idealize.ShloMosaic.Lib.ValueIdx

set_option maxRecDepth 16384

noncomputable section
namespace Cert.Proof.Bridge

open Cert.KernelIdeal Cert.KernelIdeal.Gen Cert.KernelIdeal.HostValue Cert.KernelIdeal.RegionValue
open Cert.ReferenceIdeal.Read Cert.ReferenceIdeal.Dense Cert.ReferenceIdeal.GcnNorm
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- Region 0's output is the reference's hidden features, each row scaled by its degree scale. -/
theorem hs_apply (p : Fin 100000) (q : Fin 128) :
    hs m ρ c (ix2 p q)
      = val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg7)) (ix2 p q)
        * val_main_v40 (F := Ideal) (m ((c : Thread nD τ).loc main_arg8)) (ix1 p) := by
  rw [h_apply]
  show (dat0 (V1 m ρ) c).arrAt 6 cfg0.N (ix2 p q) = _
  rw [region0_apply (V1 m ρ) c p q, scaledDense_apply, entry0_arg0, entry0_mean, entry0_arg1, entry0_bias, entry0_arg3, entry0_dinv,
    Cert.Layout.shapeCast_col_apply]
  simp only [Cert.Layout.shapeCast_row_apply]

/-- Region 1's output is the reference's convolved features. -/
theorem conv_apply (p : Fin 100000) (q : Fin 128) :
    conv m ρ c (ix2 p q)
      = val_main_v77 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg7)) (m ((c : Thread nD τ).loc main_arg8)) (ix2 p q) := by
  rw [x2_apply _ _ _ _ _ _ _ (hs m ρ c) (hs_apply m ρ c) p q]
  show (dat1 (V3 m ρ) c).arrAt 4 cfg1.N (ix2 p q) = _
  rw [region1_apply (V3 m ρ) c p q, scaledSum_apply, entry1_dinv, entry1_sum, entry1_hs, entry1_bias, Cert.Layout.shapeCast_col_apply,
    Cert.Layout.shapeCast_row_apply]

/-- The same, as one equation between arrays. -/
theorem conv_eq :
    conv m ρ c
      = val_main_v77 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg7)) (m ((c : Thread nD τ).loc main_arg8)) := by
  funext i
  obtain ⟨p, q, rfl⟩ : ∃ (p : Fin 100000) (q : Fin 128), i = ix2 p q := ⟨i 0, i 1, eq_ix2 i⟩
  exact conv_apply m ρ c p q

/-- The kernel program's result is the reference's result term of the same arguments. -/
theorem result_eq_ref :
    W6 m ρ c (Proc.devRef .tc main_v73)
      = val_main_v106 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  rw [result_eq]
  funext i
  obtain ⟨p, q, rfl⟩ : ∃ (p : Fin 100000) (q : Fin 128), i = ix2 p q := ⟨i 0, i 1, eq_ix2 i⟩
  rw [out_apply, val_main_v100_eq, region2_apply (V5 m ρ) c p q, denseRelu_apply, entry2_conv, entry2_mean, entry2_arg5, entry2_bias, conv_eq,
    Cert.Layout.shapeCast_row_apply]

end Cert.Proof.Bridge
end
-- ==== Proof.lean ====
/-
  The kernel program against its reference, over the extended reals.

  Both programs compute three stages over `N = 100000` nodes with `128` features: a neighbourhood mean and a dense layer
  `x = relu(emb + mean · W_down + b_down)`; a graph convolution with self loops and symmetric normalisation over the
  same-level edges; a second neighbourhood mean and dense layer `relu(y + mean₂ · W_up + b_up)`.  The gathers, the
  scatter-adds and the two means are the same host operations in both programs.  They differ in the convolution: with
  `h = x · W_gcn`, `deg = (number of edges into the node) + 1` and `dinv = deg^(-1/2)`, the reference sums
  `dinv[s]·dinv[d]·h[s]` over the edges `s → d` into row `d` and adds `h·(1/deg)`, while the kernel program scales once,
  `hs = h·dinv`, sums `hs[s]` into row `d`, and finishes with `dinv·(sum + hs)`.  An edge that lands in row `n` has
  destination `n`, so its factor `dinv[d]` is `dinv[n]`; `dinv[n]` is a positive real, so it distributes over the sum
  of extended reals; and `dinv[n]·dinv[n] = 1/deg[n]` because `deg[n] ≥ 1`.  The dense layers agree entry by entry: a
  product into a zero accumulator, in row blocks or whole, is the same sum over the contracted axis, and rounding the
  operands to a shorter float format is the identity on the extended reals.

  The modules: `KernelRun` (the kernel program's run with its result named), `KernelHost` (its host stretches read at
  the buffers the regions take), `Region0` … `Region2` (what each region leaves in its output array, entry by entry),
  `RefDense` (the reference's dense layers read at an entry), `GcnNorm` with `GcnCoords` and `LibScaledSum` (the
  convolution's two arrangements), `Bridge` (the kernel program's result is the reference's result term).
-/
import proofs.«101062_j15590731285076_2_alg».proof.Defs
import proofs.«101062_j15590731285076_2_alg».proof.Proof.Gen.Kernel
import proofs.«101062_j15590731285076_2_alg».proof.Proof.Gen.Kernel.Skeleton
import proofs.«101062_j15590731285076_2_alg».proof.Proof.Gen.Kernel.Launch
import proofs.«101062_j15590731285076_2_alg».proof.Proof.Gen.Kernel.Points
import proofs.«101062_j15590731285076_2_alg».proof.Proof.Gen.Kernel.Frame
import proofs.«101062_j15590731285076_2_alg».proof.Proof.Gen.KernelIdeal
import proofs.«101062_j15590731285076_2_alg».proof.Proof.Gen.KernelIdeal.Skeleton
import proofs.«101062_j15590731285076_2_alg».proof.Proof.Gen.KernelIdeal.Launch
import proofs.«101062_j15590731285076_2_alg».proof.Proof.Gen.KernelIdeal.Points
import proofs.«101062_j15590731285076_2_alg».proof.Proof.Gen.KernelIdeal.Frame
import proofs.«101062_j15590731285076_2_alg».proof.Proof.Gen.ReferenceIdeal
import proofs.«101062_j15590731285076_2_alg».proof.Proof.Gen.Pre_finite_inputs
import proofs.«101062_j15590731285076_2_alg».proof.Proof.Gen.ReferenceIdeal.Run
import proofs.«101062_j15590731285076_2_alg».proof.Proof.Gen.ReferenceIdeal.Read
import proofs.«101062_j15590731285076_2_alg».proof.Proof.KernelRun
import proofs.«101062_j15590731285076_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is a sequence of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel program was rewritten when it was read over the extended reals. -/
theorem preserves : Cert.preserves_Kernel_KernelIdeal := trivial

/-- From memories that agree on the arguments both programs run, and the reference's result is the kernel program's:
    the reference's result term, at the kernel program's arguments, is what the kernel program's last region leaves. -/
theorem algebraic : Cert.algebraic_KernelIdeal_ReferenceIdeal := by
  intro m ρ m' ρ' _ hagree
  refine ⟨fun c => Cert.KernelIdeal.Gen.W6 m ρ c (Proc.devRef .tc Cert.KernelIdeal.main_v73),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v106_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  exact (Cert.Proof.Bridge.result_eq_ref m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
